-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S8x128x128 : Shape := ⟨3, ![8, 128, 128]⟩
abbrev S8x128 : Shape := ⟨2, ![8, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128x10 .f32) (main_arg7 : FVec F S10 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S128x10 .f32 := Host.absf main_arg6
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : IVec S50000 32) (main_arg3 : FVec F S8x128x128 .f32) (main_arg4 : FVec F S8x128x128 .f32) (main_arg5 : FVec F S8x128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg5
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg6 main_arg7 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S8x128x128 : Shape := ⟨3, ![8, 128, 128]⟩
abbrev S8x128 : Shape := ⟨2, ![8, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S50000x1 : Shape := ⟨2, ![50000, 1]⟩
abbrev S128x1 : Shape := ⟨2, ![128, 1]⟩
abbrev S1x10 : Shape := ⟨2, ![1, 10]⟩

abbrev nBuf : Space → Nat
  | .hbm => 198
  | .vmem => 76
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S8x128x128, .f32⟩
  | 4 => ⟨S8x128x128, .f32⟩
  | 5 => ⟨S8x128, .f32⟩
  | 6 => ⟨S128x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S1x128, .f32⟩
  | 26 => ⟨S128, .f32⟩
  | 27 => ⟨S1x128, .f32⟩
  | 28 => ⟨S1x128x128, .f32⟩
  | 29 => ⟨S128x128, .f32⟩
  | 30 => ⟨S1x128x128, .f32⟩
  | 31 => ⟨S128x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128, .f32⟩
  | 47 => ⟨S128, .f32⟩
  | 48 => ⟨S1x128, .f32⟩
  | 49 => ⟨S1x128x128, .f32⟩
  | 50 => ⟨S128x128, .f32⟩
  | 51 => ⟨S1x128x128, .f32⟩
  | 52 => ⟨S128x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128, .f32⟩
  | 68 => ⟨S128, .f32⟩
  | 69 => ⟨S1x128, .f32⟩
  | 70 => ⟨S1x128x128, .f32⟩
  | 71 => ⟨S128x128, .f32⟩
  | 72 => ⟨S1x128x128, .f32⟩
  | 73 => ⟨S128x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S1x128x128, .f32⟩
  | 94 => ⟨S128x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S1x128, .f32⟩
  | 110 => ⟨S128, .f32⟩
  | 111 => ⟨S1x128, .f32⟩
  | 112 => ⟨S1x128x128, .f32⟩
  | 113 => ⟨S128x128, .f32⟩
  | 114 => ⟨S1x128x128, .f32⟩
  | 115 => ⟨S128x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S1x128, .f32⟩
  | 3 => ⟨S128, .f32⟩
  | 4 => ⟨S1x128, .f32⟩
  | 5 => ⟨S1x128x128, .f32⟩
  | 6 => ⟨S128x128, .f32⟩
  | 7 => ⟨S1x128x128, .f32⟩
  | 8 => ⟨S128x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1x128, .f32⟩
  | 24 => ⟨S128, .f32⟩
  | 25 => ⟨S1x128, .f32⟩
  | 26 => ⟨S1x128x128, .f32⟩
  | 27 => ⟨S128x128, .f32⟩
  | 28 => ⟨S1x128x128, .f32⟩
  | 29 => ⟨S128x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S1x128, .f32⟩
  | 45 => ⟨S128, .f32⟩
  | 46 => ⟨S1x128, .f32⟩
  | 47 => ⟨S1x128x128, .f32⟩
  | 48 => ⟨S128x128, .f32⟩
  | 49 => ⟨S1x128x128, .f32⟩
  | 50 => ⟨S128x128, .f32⟩
  | 51 => ⟨S50000x128, .f32⟩
  | 52 => ⟨S_, .f32⟩
  | 53 => ⟨S128x128, .f32⟩
  | 54 => ⟨S50000x1, .i32⟩
  | 55 => ⟨S128x128, .f32⟩
  | 56 => ⟨S_, .f32⟩
  | 57 => ⟨S50000, .f32⟩
  | 58 => ⟨S_, .f32⟩
  | 59 => ⟨S128, .f32⟩
  | 60 => ⟨S50000x1, .i32⟩
  | 61 => ⟨S128, .f32⟩
  | 62 => ⟨S_, .f32⟩
  | 63 => ⟨S128, .f32⟩
  | 64 => ⟨S128, .f32⟩
  | 65 => ⟨S128x1, .f32⟩
  | 66 => ⟨S128x128, .f32⟩
  | 67 => ⟨S128x128, .f32⟩
  | 68 => ⟨S1x10, .f32⟩
  | 69 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S128x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S128x128, .f32⟩
  | .local _ .vmem, ⟨73, _⟩ => ⟨S128x10, .f32⟩
  | .local _ .vmem, ⟨74, _⟩ => ⟨S1x10, .f32⟩
  | .local _ .vmem, ⟨75, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_10 : Ref sig .tc := ⟨.hbm, 96, rfl⟩
abbrev main_v76 : Ref sig .tc := ⟨.hbm, 97, rfl⟩
abbrev main_v77 : Ref sig .tc := ⟨.hbm, 98, rfl⟩
abbrev main_c_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_12 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_13 : Ref sig .tc := ⟨.hbm, 117, rfl⟩
abbrev main_v94 : Ref sig .tc := ⟨.hbm, 118, rfl⟩
abbrev main_v95 : Ref sig .tc := ⟨.hbm, 119, rfl⟩
abbrev main_c_14 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_15 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_c_16 : Ref sig .tc := ⟨.hbm, 138, rfl⟩
abbrev main_v112 : Ref sig .tc := ⟨.hbm, 139, rfl⟩
abbrev main_v113 : Ref sig .tc := ⟨.hbm, 140, rfl⟩
abbrev main_c_17 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_18 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c_19 : Ref sig .tc := ⟨.hbm, 159, rfl⟩
abbrev main_v130 : Ref sig .tc := ⟨.hbm, 160, rfl⟩
abbrev main_v131 : Ref sig .tc := ⟨.hbm, 161, rfl⟩
abbrev main_c_20 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_22 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_23 : Ref sig .tc := ⟨.hbm, 184, rfl⟩
abbrev main_v151 : Ref sig .tc := ⟨.hbm, 185, rfl⟩
abbrev main_cst_24 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_25 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem1_0 : DmaSem sig := 73
abbrev cc8_sem2_0 : DmaSem sig := 74
abbrev cc8_sem3_0 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S8x128_S1x128_0_0 : S8x128.Slices ![0, 0] S1x128
  shapeCasts_S1x128_S128 : S1x128.ShapeCasts S128
  shapeCasts_S128_S1x128 : S128.ShapeCasts S1x128
  slices_S8x128x128_S1x128x128_0_0_0 : S8x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S8x128_S1x128_1_0 : S8x128.Slices ![1, 0] S1x128
  slices_S8x128x128_S1x128x128_1_0_0 : S8x128x128.Slices ![1, 0, 0] S1x128x128
  slices_S8x128_S1x128_2_0 : S8x128.Slices ![2, 0] S1x128
  slices_S8x128x128_S1x128x128_2_0_0 : S8x128x128.Slices ![2, 0, 0] S1x128x128
  slices_S8x128_S1x128_3_0 : S8x128.Slices ![3, 0] S1x128
  slices_S8x128x128_S1x128x128_3_0_0 : S8x128x128.Slices ![3, 0, 0] S1x128x128
  slices_S8x128_S1x128_4_0 : S8x128.Slices ![4, 0] S1x128
  slices_S8x128x128_S1x128x128_4_0_0 : S8x128x128.Slices ![4, 0, 0] S1x128x128
  slices_S8x128_S1x128_5_0 : S8x128.Slices ![5, 0] S1x128
  slices_S8x128x128_S1x128x128_5_0_0 : S8x128x128.Slices ![5, 0, 0] S1x128x128
  slices_S8x128_S1x128_6_0 : S8x128.Slices ![6, 0] S1x128
  slices_S8x128x128_S1x128x128_6_0_0 : S8x128x128.Slices ![6, 0, 0] S1x128x128
  slices_S8x128_S1x128_7_0 : S8x128.Slices ![7, 0] S1x128
  slices_S8x128x128_S1x128x128_7_0_0 : S8x128x128.Slices ![7, 0, 0] S1x128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x128.size a ≤ S128x128.size a
  hwx8_0 : ∀ i : grid8.Coords, EltTy.bits .f32 = 32 ∨ (Rect.block (s := S128x128) S128x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x10.size a ≤ S128x10.size a
  hwx8_1 : ∀ i : grid8.Coords, EltTy.bits .f32 = 32 ∨ (Rect.block (s := S128x10) S128x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v90) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v108) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v121) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v124) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v139) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v144) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v146) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v147) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v159) S128x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S128x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v160) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v161) S128x10.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S8x128x128 : Shape := ⟨3, ![8, 128, 128]⟩
abbrev S8x128 : Shape := ⟨2, ![8, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x1 : Shape := ⟨2, ![128, 1]⟩
abbrev S1x10 : Shape := ⟨2, ![1, 10]⟩

abbrev nBuf : Space → Nat
  | .hbm => 253
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S8x128x128, .f32⟩
  | 4 => ⟨S8x128x128, .f32⟩
  | 5 => ⟨S8x128, .f32⟩
  | 6 => ⟨S128x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S1x128x128, .f32⟩
  | 13 => ⟨S128x128, .f32⟩
  | 14 => ⟨S1x128x128, .f32⟩
  | 15 => ⟨S128x128, .f32⟩
  | 16 => ⟨S1x128, .f32⟩
  | 17 => ⟨S128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S1x128x128, .f32⟩
  | 41 => ⟨S128x128, .f32⟩
  | 42 => ⟨S1x128x128, .f32⟩
  | 43 => ⟨S128x128, .f32⟩
  | 44 => ⟨S1x128, .f32⟩
  | 45 => ⟨S128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S1x128x128, .f32⟩
  | 71 => ⟨S128x128, .f32⟩
  | 72 => ⟨S1x128, .f32⟩
  | 73 => ⟨S128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S1x128x128, .f32⟩
  | 99 => ⟨S128x128, .f32⟩
  | 100 => ⟨S1x128, .f32⟩
  | 101 => ⟨S128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S1x128x128, .f32⟩
  | 127 => ⟨S128x128, .f32⟩
  | _ => ⟨S50000x128, .f32⟩

abbrev hbmTy0_1 (i : Nat) : BufTy := match i % 128 with
  | 0 => ⟨S1x128, .f32⟩
  | 1 => ⟨S128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S1x128x128, .f32⟩
  | 25 => ⟨S128x128, .f32⟩
  | 26 => ⟨S1x128x128, .f32⟩
  | 27 => ⟨S128x128, .f32⟩
  | 28 => ⟨S1x128, .f32⟩
  | 29 => ⟨S128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S1x128x128, .f32⟩
  | 55 => ⟨S128x128, .f32⟩
  | 56 => ⟨S1x128, .f32⟩
  | 57 => ⟨S128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S1x128x128, .f32⟩
  | 83 => ⟨S128x128, .f32⟩
  | 84 => ⟨S1x128, .f32⟩
  | 85 => ⟨S128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S128x128, .f32⟩
  | 107 => ⟨S50000x1, .i32⟩
  | 108 => ⟨S128x128, .f32⟩
  | 109 => ⟨S_, .f32⟩
  | 110 => ⟨S50000, .f32⟩
  | 111 => ⟨S_, .f32⟩
  | 112 => ⟨S128, .f32⟩
  | 113 => ⟨S50000x1, .i32⟩
  | 114 => ⟨S128, .f32⟩
  | 115 => ⟨S_, .f32⟩
  | 116 => ⟨S128, .f32⟩
  | 117 => ⟨S128, .f32⟩
  | 118 => ⟨S128x1, .f32⟩
  | 119 => ⟨S128x128, .f32⟩
  | 120 => ⟨S128x128, .f32⟩
  | 121 => ⟨S128x10, .f32⟩
  | 122 => ⟨S1x10, .f32⟩
  | 123 => ⟨S128x10, .f32⟩
  | 124 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_1 : Ref sig .tc := ⟨.hbm, 46, rfl⟩
abbrev main_v33 : Ref sig .tc := ⟨.hbm, 47, rfl⟩
abbrev main_v34 : Ref sig .tc := ⟨.hbm, 48, rfl⟩
abbrev main_c_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_c_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call2_cst : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_7 : Ref sig .tc := ⟨.hbm, 102, rfl⟩
abbrev main_v79 : Ref sig .tc := ⟨.hbm, 103, rfl⟩
abbrev main_v80 : Ref sig .tc := ⟨.hbm, 104, rfl⟩
abbrev main_c_8 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_9 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_call3_cst : Ref sig .tc := ⟨.hbm, 121, rfl⟩
abbrev main_call3_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c_10 : Ref sig .tc := ⟨.hbm, 130, rfl⟩
abbrev main_v102 : Ref sig .tc := ⟨.hbm, 131, rfl⟩
abbrev main_v103 : Ref sig .tc := ⟨.hbm, 132, rfl⟩
abbrev main_c_11 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_12 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_call4_cst : Ref sig .tc := ⟨.hbm, 149, rfl⟩
abbrev main_call4_v0 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_c_13 : Ref sig .tc := ⟨.hbm, 158, rfl⟩
abbrev main_v125 : Ref sig .tc := ⟨.hbm, 159, rfl⟩
abbrev main_v126 : Ref sig .tc := ⟨.hbm, 160, rfl⟩
abbrev main_c_14 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_15 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_call5_cst : Ref sig .tc := ⟨.hbm, 177, rfl⟩
abbrev main_call5_v0 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_16 : Ref sig .tc := ⟨.hbm, 186, rfl⟩
abbrev main_v148 : Ref sig .tc := ⟨.hbm, 187, rfl⟩
abbrev main_v149 : Ref sig .tc := ⟨.hbm, 188, rfl⟩
abbrev main_c_17 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_18 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_call6_cst : Ref sig .tc := ⟨.hbm, 205, rfl⟩
abbrev main_call6_v0 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_c_19 : Ref sig .tc := ⟨.hbm, 214, rfl⟩
abbrev main_v171 : Ref sig .tc := ⟨.hbm, 215, rfl⟩
abbrev main_v172 : Ref sig .tc := ⟨.hbm, 216, rfl⟩
abbrev main_c_20 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_21 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_cst_22 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_cst_23 : Ref sig .tc := ⟨.hbm, 237, rfl⟩
abbrev main_v190 : Ref sig .tc := ⟨.hbm, 238, rfl⟩
abbrev main_cst_24 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_25 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x10_S128x10_1_0_0_1_n_n_wf : DotDims.WF S128x128 S128x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel's run with its result named: every weakly fair execution of @main terminates, nothing faults, the
  argument arrays end as launched, and the result buffer ends at the contents the fold through @main's eighteen segments
  (nine stretches of host operations, nine grid regions) leaves there. The frame claim forgets the result buffer; this is the
  same launch over the same segments read against the final state at one more buffer.
-/
import proofs.«108526_j48593259987025_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read off the last boundary's contents. -/
theorem run_named : θ_run defs (onTc (τ := τ) (main (F := F))) ⟨m, fun _ => 0, ρ⟩ (fun r => ∀ c : Dev nD,
      r.2.mem ((c.tc : Thread nD τ).loc main_v161) = V18 m ρ c main_v161
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v161 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Named

end
-- ==== Proof.Spec.lean ====
/-
  The graph-convolution network both programs compute, as plain functions over the extended reals, index by index.
  One layer sends node features `h` (one row per node) to `(A h · W_rel + h · W_root) + b`, where `A h` is the neighbourhood sum
  (row `d` of `A h` adds the rows `h s` over the edges `s → d`); the first seven layers clamp the result below at zero. The
  rows are then pooled per graph (`P`) and one more affine map `pooled · W_lin + b_lin` gives the result.
  The aggregation `A` and the pooling `P` are parameters here: both programs compute them by the same host operations, so the
  comparison never opens them. The one algebraic fact the comparison needs is that the three summands of a layer may be added
  in either grouping: `(a + c) + b = (a + b) + c`, which holds on the extended reals without any finiteness assumption.
-/
import Idealize.ShloMosaic.PureOps.Ideal.Laws
import Idealize.ShloMosaic.Lib.ValueIdx

noncomputable section

namespace GraphConv

open Idealize.ShloMosaic Idealize.ShloMosaic.ValueIdx

/-- A matrix of extended reals with `r` rows and `c` columns, indexed as the programs index a rank-two array. -/
abbrev Mat (r c : Nat) : Type := (⟨2, ![r, c]⟩ : Shape).Idx → EReal

/-- The float zero both programs clamp against (the same word on both sides; never evaluated). -/
abbrev zeroE : EReal := Ideal.ofBits .f32 0x00000000#32

/-- The matrix product `a · w` at `(r, c)`: the sum over the inner coordinate. -/
def mm {n k l : Nat} (a : Mat n k) (w : Mat k l) (r : Fin n) (c : Fin l) : EReal := ∑ j : Fin k, a (ix2 r j) * w (ix2 j c)

/-- One layer before the clamp: `(agg · W_rel + h · W_root) + b`, the bias added last. -/
def affine {n : Nat} (agg h : Mat n 128) (wr ws : Mat 128 128) (b : Fin 128 → EReal) : Mat n 128 :=
  fun i => (mm agg wr ⟨(i 0).val, idx2_lt0 i⟩ ⟨(i 1).val, idx2_lt1 i⟩ + mm h ws ⟨(i 0).val, idx2_lt0 i⟩ ⟨(i 1).val, idx2_lt1 i⟩)
    + b ⟨(i 1).val, idx2_lt1 i⟩

/-- The clamp below at zero, entry by entry. -/
def relu {n : Nat} (a : Mat n 128) : Mat n 128 := fun i => max (a i) zeroE

/-- The bias may be added before the second product: `(a + b) + c = (a + c) + b` on the extended reals. -/
theorem add_bias_mid (a b c : EReal) : (a + b) + c = (a + c) + b := add_right_comm a b c

/-- The last affine map: `pooled · W_lin + b_lin`. -/
def lin (p : Mat 128 128) (w : Mat 128 10) (b : Fin 10 → EReal) : Mat 128 10 :=
  fun i => mm p w ⟨(i 0).val, idx2_lt0 i⟩ ⟨(i 1).val, idx2_lt1 i⟩ + b ⟨(i 1).val, idx2_lt1 i⟩

/-- A hidden layer: aggregate, apply the affine map, clamp. -/
def hidden (A : Mat 50000 128 → Mat 50000 128) (h : Mat 50000 128) (wr ws : Mat 128 128) (b : Fin 128 → EReal) : Mat 50000 128 :=
  relu (affine (A h) h wr ws b)

/-- The last graph-convolution layer: no clamp. -/
def last (A : Mat 50000 128 → Mat 50000 128) (h : Mat 50000 128) (wr ws : Mat 128 128) (b : Fin 128 → EReal) : Mat 50000 128 :=
  affine (A h) h wr ws b

/-- The whole network: seven hidden layers, the last layer, pooling, the final affine map. -/
def model (A : Mat 50000 128 → Mat 50000 128) (P : Mat 50000 128 → Mat 128 128) (x : Mat 50000 128)
    (wr ws : Fin 8 → Mat 128 128) (b : Fin 8 → Fin 128 → EReal) (wl : Mat 128 10) (bl : Fin 10 → EReal) : Mat 128 10 :=
  let h1 := hidden A x (wr 0) (ws 0) (b 0)
  let h2 := hidden A h1 (wr 1) (ws 1) (b 1)
  let h3 := hidden A h2 (wr 2) (ws 2) (b 2)
  let h4 := hidden A h3 (wr 3) (ws 3) (b 3)
  let h5 := hidden A h4 (wr 4) (ws 4) (b 4)
  let h6 := hidden A h5 (wr 5) (ws 5) (b 5)
  let h7 := hidden A h6 (wr 6) (ws 6) (b 6)
  let h8 := last A h7 (wr 7) (ws 7) (b 7)
  lin (P h8) wl bl

end GraphConv

end
-- ==== Proof.HostFns.lean ====
/-
  The host side of the idealized kernel, as functions of the argument arrays. Between the grid regions @main computes, by
  host operations: the source and destination node of every edge (the two rows of `edge_index`); the neighbourhood sum of the
  current node features (the source index wrapped into range, the source rows gathered, then added into their destination
  rows); layer `l`'s two weight matrices and bias row (slices of the stacked weights, re-laid); after the last layer the mean
  pool per graph (rows added per graph and divided by the graph's node count, at least one); and the final bias as a row.
  Here each of these is named as a function of the arguments, and the slices are read at an index.
-/
import proofs.«108526_j48593259987025_1_alg».proof.Proof.Gen.KernelIdeal.Frame
import proofs.«108526_j48593259987025_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

/-- A buffer no operation of a stretch writes is left as it was. -/
macro "host_skip" : tactic => `(tactic| exact StableHlo.after_of_forall_not_mem _ _ (List.forall_iff_forall_mem.mp (by
          simp only [hostOps0, hostOps1, hostOps2, hostOps3, hostOps4, hostOps5, hostOps6, hostOps7, hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The source node of every edge: row 0 of `edge_index`. -/
def srcK (x1 : IVec S2x800000 32) : IVec S800000 32 :=
  shapeCast S800000 (extractStridedSlice S1x800000 ![0, 0] x1 slices_S2x800000_S1x800000_0_0) shapeCasts_S1x800000_S800000

/-- The destination node of every edge: row 1 of `edge_index`. -/
def dstK (x1 : IVec S2x800000 32) : IVec S800000 32 :=
  shapeCast S800000 (extractStridedSlice S1x800000 ![1, 0] x1 slices_S2x800000_S1x800000_1_0) shapeCasts_S1x800000_S800000

/-- The neighbourhood sum: gather the source rows (a negative source index wrapped by the node count), add them into
    their destination rows of a zero matrix. -/
def aggK (x1 : IVec S2x800000 32) (h : GraphConv.Mat 50000 128) : GraphConv.Mat 50000 128 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstK x1))
    (Host.gather gather_S50000x128_S800000x1_S800000x128_1_0_n_n_0_1_1128 h
      (broadcastInDim S800000x1 ![0] bcast_S800000_S800000x1_0
        (select (cmpi .slt (srcK x1) (broadcastInDim S800000 ![] bcast_S_S800000 (constantI S_ 32 0#32)))
          (addi (srcK x1) (broadcastInDim S800000 ![] bcast_S_S800000 (constantI S_ 32 50000#32)))
          (srcK x1))))

/-- The mean pool: rows added per graph, divided by the graph's node count (at least one). -/
def poolK (x2 : IVec S50000 32) (h : GraphConv.Mat 50000 128) : GraphConv.Mat 128 128 :=
  Host.divf (F := Ideal) (φ := .f32)
    (Host.scatterAdd (F := Ideal) (φ := .f32) scatter_S128x128_S50000x1_S50000x128_1_0_0_1
      (broadcastInDim S128x128 ![] bcast_S_S128x128 (constant (F := Ideal) S_ .f32 0x00000000#32))
      (broadcastInDim S50000x1 ![0] bcast_S50000_S50000x1_0 x2)
      h)
    (broadcastInDim S128x128 ![0, 1] bcast_S128x1_S128x128_0_1
      (broadcastInDim S128x1 ![0] bcast_S128_S128x1_0
        (maximumf (F := Ideal) (φ := .f32)
          (Host.scatterAdd (F := Ideal) (φ := .f32) scatter_S128_S50000x1_S50000_n_0_0_1
            (broadcastInDim S128 ![] bcast_S_S128 (constant (F := Ideal) S_ .f32 0x00000000#32))
            (broadcastInDim S50000x1 ![0] bcast_S50000_S50000x1_0 x2)
            (broadcastInDim S50000 ![] bcast_S_S50000 (constant (F := Ideal) S_ .f32 0x3F800000#32)))
          (broadcastInDim S128 ![] bcast_S_S128 (constant (F := Ideal) S_ .f32 0x3F800000#32)))))

/-- Layer `l`'s 128 × 128 weight matrix out of the stacked weights. -/
def wmat (x : Vec Ideal S8x128x128 .f32) : Fin 8 → GraphConv.Mat 128 128 :=
  fun l i => x (ix3 l ⟨(i 0).val, idx2_lt0 i⟩ ⟨(i 1).val, idx2_lt1 i⟩)

/-- Layer `l`'s bias out of the stacked biases. -/
def bvec (x : Vec Ideal S8x128 .f32) : Fin 8 → Fin 128 → EReal := fun l q => x (ix2 l q)

/-- The final bias. -/
def blin (x : Vec Ideal S10 .f32) : Fin 10 → EReal := fun q => x (ix1 q)

/-- The slice `[l, :, :]` of the stacked weights re-laid as a matrix, read at an index. -/
theorem slice_mat (x : Vec Ideal S8x128x128 .f32) (l : Nat) (hl : l < 8) (hs : S8x128x128.Slices ![l, 0, 0] S1x128x128) :
    shapeCast S128x128 (extractStridedSlice S1x128x128 ![l, 0, 0] x hs) shapeCasts_S1x128x128_S128x128 = wmat x ⟨l, hl⟩ := by
  funext i
  have h0 : (i 0).val < 128 := (i 0).isLt
  have h1 : (i 1).val < 128 := (i 1).isLt
  refine (shapeCast_apply _ shapeCasts_S1x128x128_S128x128 i (ix3 (0 : Fin 1) (⟨(i 0).val, h0⟩ : Fin 128) (⟨(i 1).val, h1⟩ : Fin 128))
    (by rewrite [Shape.rowMajor_val_three, Shape.rowMajor_val_two]; show (0 * 128 + (i 0).val) * 128 + (i 1).val = (i 0).val * 128 + (i 1).val; omega)).trans ?_
  exact extractStridedSlice_apply ![l, 0, 0] x hs _ (ix3 (⟨l, hl⟩ : Fin 8) (⟨(i 0).val, h0⟩ : Fin 128) (⟨(i 1).val, h1⟩ : Fin 128)) (fun a => match a with
    | ⟨0, _⟩ => by show l = l + 0; omega
    | ⟨1, _⟩ => by show (i 0).val = 0 + (i 0).val; omega
    | ⟨2, _⟩ => by show (i 1).val = 0 + (i 1).val; omega)

/-- The slice `[l, :]` of the stacked biases re-laid as a vector and again as a row, read in its one row. -/
theorem slice_row (x : Vec Ideal S8x128 .f32) (l : Nat) (hl : l < 8) (hs : S8x128.Slices ![l, 0] S1x128) (q : Fin 128) :
    shapeCast S1x128 (shapeCast S128 (extractStridedSlice S1x128 ![l, 0] x hs) shapeCasts_S1x128_S128) shapeCasts_S128_S1x128 (ix2 0 q)
      = bvec x ⟨l, hl⟩ q := by
  rw [shapeCast_shapeCast]
  exact extractStridedSlice_apply ![l, 0] x hs _ (ix2 (⟨l, hl⟩ : Fin 8) q) (fun a => match a with
    | ⟨0, _⟩ => by show l = l + 0; omega
    | ⟨1, _⟩ => by show q.val = 0 + q.val; omega)

/-- The final bias re-laid as a row, read in its one row. -/
theorem row_blin (x : Vec Ideal S10 .f32) (q : Fin 10) :
    shapeCast S1x10 x shapeCasts_S10_S1x10 (ix2 0 q) = blin x q :=
  shapeCast_apply x shapeCasts_S10_S1x10 (ix2 0 q) (ix1 q)
    (by rewrite [Shape.rowMajor_val_two, Shape.rowMajor_val_one]; show q.val = 0 * 10 + q.val; omega)

end Cert.KernelIdeal.Host

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.Layer0.lean ====
/-
  Grid region 0 of the idealized kernel: graph-convolution layer 1. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k0_pay1 (F := Ideal) x0 x1 x2 x3 x4 (ix2 r c)
      = max ((GraphConv.mm x0 x2 r c + GraphConv.mm x1 x3 r c) + x4 (ix2 0 c)) GraphConv.zeroE := by
  unfold k0_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k0_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem idx_onto : ∀ q : Fin 10, ∃ t : Fin cfg0.N, win0_5.index t = ![q.val, 0] :=
  (by decide +kernel : ∀ q : Fin 10, ∃ t : Fin grid0.N, win0_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v13) (V c main_arg0) (V c main_v18) (V c main_v20) (fun q => V c main_v16 (ix2 0 q)))

/-- What point `t` writes back is block `t` of that function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg0.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v13 (((cfg0.win 0).blk t).view.emb (ix2 ⟨(j 0).val, hj0⟩ k)) = V c main_v13 _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v18 (((cfg0.win 2).blk t).view.emb (ix2 k ⟨(j 1).val, hj1⟩)) = V c main_v18 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_arg0 (((cfg0.win 1).blk t).view.emb (ix2 ⟨(j 0).val, hj0⟩ k)) = V c main_arg0 _
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_v20 (((cfg0.win 3).blk t).view.emb (ix2 k ⟨(j 1).val, hj1⟩)) = V c main_v20 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v16 (((cfg0.win 4).blk t).view.emb (ix2 0 ⟨(j 1).val, hj1⟩)) = V c main_v16 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The ten row blocks cover the array: row `r` lies in block `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region. -/
theorem final (c : Dev nD) : (dat0 V c).arrAt 5 cfg0.N = G V c :=
  (dat0 V c).arrAt_eq_of_cover 5 (G V c) (fun t _ => flushed_eq V c t) cover

end Cert.KernelIdeal.Layer0

end
-- ==== Proof.KeepA.lean ====
/-
  The stacked weights and biases are argument arrays: no host operation and no grid region writes them, so at every boundary between @main's segments they hold what they were launched with.
-/
import proofs.«108526_j48593259987025_1_alg».proof.Proof.HostFns
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem step2_main_arg3 (c : Dev nD) : W2 m ρ c (Proc.devRef .tc main_arg3) = W0 m ρ c (Proc.devRef .tc main_arg3) :=
  (W2_of_ne m ρ c main_arg3 (by decide)).trans (by host_skip)

theorem step4_main_arg3 (c : Dev nD) : W4 m ρ c (Proc.devRef .tc main_arg3) = W2 m ρ c (Proc.devRef .tc main_arg3) :=
  (W4_of_ne m ρ c main_arg3 (by decide)).trans (by host_skip)

theorem step6_main_arg3 (c : Dev nD) : W6 m ρ c (Proc.devRef .tc main_arg3) = W4 m ρ c (Proc.devRef .tc main_arg3) :=
  (W6_of_ne m ρ c main_arg3 (by decide)).trans (by host_skip)

theorem step8_main_arg3 (c : Dev nD) : W8 m ρ c (Proc.devRef .tc main_arg3) = W6 m ρ c (Proc.devRef .tc main_arg3) :=
  (W8_of_ne m ρ c main_arg3 (by decide)).trans (by host_skip)

theorem step10_main_arg3 (c : Dev nD) : W10 m ρ c (Proc.devRef .tc main_arg3) = W8 m ρ c (Proc.devRef .tc main_arg3) :=
  (W10_of_ne m ρ c main_arg3 (by decide)).trans (by host_skip)

theorem step12_main_arg3 (c : Dev nD) : W12 m ρ c (Proc.devRef .tc main_arg3) = W10 m ρ c (Proc.devRef .tc main_arg3) :=
  (W12_of_ne m ρ c main_arg3 (by decide)).trans (by host_skip)

theorem step14_main_arg3 (c : Dev nD) : W14 m ρ c (Proc.devRef .tc main_arg3) = W12 m ρ c (Proc.devRef .tc main_arg3) :=
  (W14_of_ne m ρ c main_arg3 (by decide)).trans (by host_skip)

theorem step2_main_arg4 (c : Dev nD) : W2 m ρ c (Proc.devRef .tc main_arg4) = W0 m ρ c (Proc.devRef .tc main_arg4) :=
  (W2_of_ne m ρ c main_arg4 (by decide)).trans (by host_skip)

theorem step4_main_arg4 (c : Dev nD) : W4 m ρ c (Proc.devRef .tc main_arg4) = W2 m ρ c (Proc.devRef .tc main_arg4) :=
  (W4_of_ne m ρ c main_arg4 (by decide)).trans (by host_skip)

theorem step6_main_arg4 (c : Dev nD) : W6 m ρ c (Proc.devRef .tc main_arg4) = W4 m ρ c (Proc.devRef .tc main_arg4) :=
  (W6_of_ne m ρ c main_arg4 (by decide)).trans (by host_skip)

theorem step8_main_arg4 (c : Dev nD) : W8 m ρ c (Proc.devRef .tc main_arg4) = W6 m ρ c (Proc.devRef .tc main_arg4) :=
  (W8_of_ne m ρ c main_arg4 (by decide)).trans (by host_skip)

theorem step10_main_arg4 (c : Dev nD) : W10 m ρ c (Proc.devRef .tc main_arg4) = W8 m ρ c (Proc.devRef .tc main_arg4) :=
  (W10_of_ne m ρ c main_arg4 (by decide)).trans (by host_skip)

theorem step12_main_arg4 (c : Dev nD) : W12 m ρ c (Proc.devRef .tc main_arg4) = W10 m ρ c (Proc.devRef .tc main_arg4) :=
  (W12_of_ne m ρ c main_arg4 (by decide)).trans (by host_skip)

theorem step14_main_arg4 (c : Dev nD) : W14 m ρ c (Proc.devRef .tc main_arg4) = W12 m ρ c (Proc.devRef .tc main_arg4) :=
  (W14_of_ne m ρ c main_arg4 (by decide)).trans (by host_skip)

theorem step2_main_arg5 (c : Dev nD) : W2 m ρ c (Proc.devRef .tc main_arg5) = W0 m ρ c (Proc.devRef .tc main_arg5) :=
  (W2_of_ne m ρ c main_arg5 (by decide)).trans (by host_skip)

theorem step4_main_arg5 (c : Dev nD) : W4 m ρ c (Proc.devRef .tc main_arg5) = W2 m ρ c (Proc.devRef .tc main_arg5) :=
  (W4_of_ne m ρ c main_arg5 (by decide)).trans (by host_skip)

theorem step6_main_arg5 (c : Dev nD) : W6 m ρ c (Proc.devRef .tc main_arg5) = W4 m ρ c (Proc.devRef .tc main_arg5) :=
  (W6_of_ne m ρ c main_arg5 (by decide)).trans (by host_skip)

theorem step8_main_arg5 (c : Dev nD) : W8 m ρ c (Proc.devRef .tc main_arg5) = W6 m ρ c (Proc.devRef .tc main_arg5) :=
  (W8_of_ne m ρ c main_arg5 (by decide)).trans (by host_skip)

theorem step10_main_arg5 (c : Dev nD) : W10 m ρ c (Proc.devRef .tc main_arg5) = W8 m ρ c (Proc.devRef .tc main_arg5) :=
  (W10_of_ne m ρ c main_arg5 (by decide)).trans (by host_skip)

theorem step12_main_arg5 (c : Dev nD) : W12 m ρ c (Proc.devRef .tc main_arg5) = W10 m ρ c (Proc.devRef .tc main_arg5) :=
  (W12_of_ne m ρ c main_arg5 (by decide)).trans (by host_skip)

theorem step14_main_arg5 (c : Dev nD) : W14 m ρ c (Proc.devRef .tc main_arg5) = W12 m ρ c (Proc.devRef .tc main_arg5) :=
  (W14_of_ne m ρ c main_arg5 (by decide)).trans (by host_skip)

theorem keep2_main_arg3 (c : Dev nD) : W2 m ρ c (Proc.devRef .tc main_arg3) = m ((c : Thread nD τ).loc main_arg3) :=
  (step2_main_arg3 m ρ c).trans (rfl)

theorem keep4_main_arg3 (c : Dev nD) : W4 m ρ c (Proc.devRef .tc main_arg3) = m ((c : Thread nD τ).loc main_arg3) :=
  (step4_main_arg3 m ρ c).trans (keep2_main_arg3 m ρ c)

theorem keep6_main_arg3 (c : Dev nD) : W6 m ρ c (Proc.devRef .tc main_arg3) = m ((c : Thread nD τ).loc main_arg3) :=
  (step6_main_arg3 m ρ c).trans (keep4_main_arg3 m ρ c)

theorem keep8_main_arg3 (c : Dev nD) : W8 m ρ c (Proc.devRef .tc main_arg3) = m ((c : Thread nD τ).loc main_arg3) :=
  (step8_main_arg3 m ρ c).trans (keep6_main_arg3 m ρ c)

theorem keep10_main_arg3 (c : Dev nD) : W10 m ρ c (Proc.devRef .tc main_arg3) = m ((c : Thread nD τ).loc main_arg3) :=
  (step10_main_arg3 m ρ c).trans (keep8_main_arg3 m ρ c)

theorem keep12_main_arg3 (c : Dev nD) : W12 m ρ c (Proc.devRef .tc main_arg3) = m ((c : Thread nD τ).loc main_arg3) :=
  (step12_main_arg3 m ρ c).trans (keep10_main_arg3 m ρ c)

theorem keep14_main_arg3 (c : Dev nD) : W14 m ρ c (Proc.devRef .tc main_arg3) = m ((c : Thread nD τ).loc main_arg3) :=
  (step14_main_arg3 m ρ c).trans (keep12_main_arg3 m ρ c)

theorem keep2_main_arg4 (c : Dev nD) : W2 m ρ c (Proc.devRef .tc main_arg4) = m ((c : Thread nD τ).loc main_arg4) :=
  (step2_main_arg4 m ρ c).trans (rfl)

theorem keep4_main_arg4 (c : Dev nD) : W4 m ρ c (Proc.devRef .tc main_arg4) = m ((c : Thread nD τ).loc main_arg4) :=
  (step4_main_arg4 m ρ c).trans (keep2_main_arg4 m ρ c)

theorem keep6_main_arg4 (c : Dev nD) : W6 m ρ c (Proc.devRef .tc main_arg4) = m ((c : Thread nD τ).loc main_arg4) :=
  (step6_main_arg4 m ρ c).trans (keep4_main_arg4 m ρ c)

theorem keep8_main_arg4 (c : Dev nD) : W8 m ρ c (Proc.devRef .tc main_arg4) = m ((c : Thread nD τ).loc main_arg4) :=
  (step8_main_arg4 m ρ c).trans (keep6_main_arg4 m ρ c)

theorem keep10_main_arg4 (c : Dev nD) : W10 m ρ c (Proc.devRef .tc main_arg4) = m ((c : Thread nD τ).loc main_arg4) :=
  (step10_main_arg4 m ρ c).trans (keep8_main_arg4 m ρ c)

theorem keep12_main_arg4 (c : Dev nD) : W12 m ρ c (Proc.devRef .tc main_arg4) = m ((c : Thread nD τ).loc main_arg4) :=
  (step12_main_arg4 m ρ c).trans (keep10_main_arg4 m ρ c)

theorem keep14_main_arg4 (c : Dev nD) : W14 m ρ c (Proc.devRef .tc main_arg4) = m ((c : Thread nD τ).loc main_arg4) :=
  (step14_main_arg4 m ρ c).trans (keep12_main_arg4 m ρ c)

theorem keep2_main_arg5 (c : Dev nD) : W2 m ρ c (Proc.devRef .tc main_arg5) = m ((c : Thread nD τ).loc main_arg5) :=
  (step2_main_arg5 m ρ c).trans (rfl)

theorem keep4_main_arg5 (c : Dev nD) : W4 m ρ c (Proc.devRef .tc main_arg5) = m ((c : Thread nD τ).loc main_arg5) :=
  (step4_main_arg5 m ρ c).trans (keep2_main_arg5 m ρ c)

theorem keep6_main_arg5 (c : Dev nD) : W6 m ρ c (Proc.devRef .tc main_arg5) = m ((c : Thread nD τ).loc main_arg5) :=
  (step6_main_arg5 m ρ c).trans (keep4_main_arg5 m ρ c)

theorem keep8_main_arg5 (c : Dev nD) : W8 m ρ c (Proc.devRef .tc main_arg5) = m ((c : Thread nD τ).loc main_arg5) :=
  (step8_main_arg5 m ρ c).trans (keep6_main_arg5 m ρ c)

theorem keep10_main_arg5 (c : Dev nD) : W10 m ρ c (Proc.devRef .tc main_arg5) = m ((c : Thread nD τ).loc main_arg5) :=
  (step10_main_arg5 m ρ c).trans (keep8_main_arg5 m ρ c)

theorem keep12_main_arg5 (c : Dev nD) : W12 m ρ c (Proc.devRef .tc main_arg5) = m ((c : Thread nD τ).loc main_arg5) :=
  (step12_main_arg5 m ρ c).trans (keep10_main_arg5 m ρ c)

theorem keep14_main_arg5 (c : Dev nD) : W14 m ρ c (Proc.devRef .tc main_arg5) = m ((c : Thread nD τ).loc main_arg5) :=
  (step14_main_arg5 m ρ c).trans (keep12_main_arg5 m ρ c)

end Cert.KernelIdeal.Host

end
-- ==== Proof.Entry0.lean ====
/-
  Graph-convolution layer 1 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer0
import proofs.«108526_j48593259987025_1_alg».proof.Proof.KeepA
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry0_agg (c : Dev nD) : V1 m ρ c main_v13 = aggK (m ((c : Thread nD τ).loc main_arg1)) (m ((c : Thread nD τ).loc main_arg0)) := by
  show StableHlo.after hostOps0 (W0 m ρ c) (Proc.devRef .tc main_v13) = _
  after_results
  rfl

/-- The current features are not touched by the stretch. -/
theorem entry0_h (c : Dev nD) : V1 m ρ c main_arg0 = (m ((c : Thread nD τ).loc main_arg0)) := by
  show StableHlo.after hostOps0 (W0 m ρ c) (Proc.devRef .tc main_arg0) = W0 m ρ c (Proc.devRef .tc main_arg0)
  host_skip

set_option maxHeartbeats 4000000 in
/-- The layer's first weight matrix. -/
theorem entry0_wr (c : Dev nD) : V1 m ρ c main_v18 = wmat (m ((c : Thread nD τ).loc main_arg3)) (0 : Fin 8) := by
  show StableHlo.after hostOps0 (W0 m ρ c) (Proc.devRef .tc main_v18) = _
  after_results
  exact slice_mat (m ((c : Thread nD τ).loc main_arg3)) 0 (by decide) slices_S8x128x128_S1x128x128_0_0_0

set_option maxHeartbeats 4000000 in
/-- The layer's second weight matrix. -/
theorem entry0_ws (c : Dev nD) : V1 m ρ c main_v20 = wmat (m ((c : Thread nD τ).loc main_arg4)) (0 : Fin 8) := by
  show StableHlo.after hostOps0 (W0 m ρ c) (Proc.devRef .tc main_v20) = _
  after_results
  exact slice_mat (m ((c : Thread nD τ).loc main_arg4)) 0 (by decide) slices_S8x128x128_S1x128x128_0_0_0

set_option maxHeartbeats 4000000 in
/-- The layer's bias, read in the one row of the bias array. -/
theorem entry0_b (c : Dev nD) : (fun q : Fin 128 => V1 m ρ c main_v16 (ix2 0 q)) = bvec (m ((c : Thread nD τ).loc main_arg5)) (0 : Fin 8) := by
  have e : V1 m ρ c main_v16 = shapeCast S1x128 (shapeCast S128 (extractStridedSlice S1x128 ![0, 0] (m ((c : Thread nD τ).loc main_arg5)) slices_S8x128_S1x128_0_0) shapeCasts_S1x128_S128) shapeCasts_S128_S1x128 := by
    show StableHlo.after hostOps0 (W0 m ρ c) (Proc.devRef .tc main_v16) = _
    after_results
    rfl
  funext q
  rw [e]
  exact slice_row (m ((c : Thread nD τ).loc main_arg5)) 0 (by decide) slices_S8x128_S1x128_0_0 q

/-- The layer's output array after its region. -/
theorem out0 (c : Dev nD) : W2 m ρ c (Proc.devRef .tc main_v21)
    = GraphConv.hidden (aggK (m ((c : Thread nD τ).loc main_arg1))) (m ((c : Thread nD τ).loc main_arg0)) (wmat (m ((c : Thread nD τ).loc main_arg3)) (0 : Fin 8)) (wmat (m ((c : Thread nD τ).loc main_arg4)) (0 : Fin 8)) (bvec (m ((c : Thread nD τ).loc main_arg5)) (0 : Fin 8)) := by
  refine (W2_arr m ρ c 5).trans ?_
  rw [Layer0.final]
  unfold Layer0.G GraphConv.hidden
  rw [entry0_agg m ρ c, entry0_h m ρ c, entry0_wr m ρ c, entry0_ws m ρ c, entry0_b m ρ c]

end Cert.KernelIdeal.Host

end
-- ==== Proof.Layer1.lean ====
/-
  Grid region 1 of the idealized kernel: graph-convolution layer 2. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k1_pay1 (F := Ideal) x0 x1 x2 x3 x4 (ix2 r c)
      = max ((GraphConv.mm x0 x2 r c + GraphConv.mm x1 x3 r c) + x4 (ix2 0 c)) GraphConv.zeroE := by
  unfold k1_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k1_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some point's. -/
theorem idx_onto : ∀ q : Fin 10, ∃ t : Fin cfg1.N, win1_5.index t = ![q.val, 0] :=
  (by decide +kernel : ∀ q : Fin 10, ∃ t : Fin grid1.N, win1_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v31) (V c main_v21) (V c main_v36) (V c main_v38) (fun q => V c main_v34 (ix2 0 q)))

/-- What point `t` writes back is block `t` of that function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg1.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v31 (((cfg1.win 0).blk t).view.emb (ix2 ⟨(j 0).val, hj0⟩ k)) = V c main_v31 _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v36 (((cfg1.win 2).blk t).view.emb (ix2 k ⟨(j 1).val, hj1⟩)) = V c main_v36 _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show V c main_v21 (((cfg1.win 1).blk t).view.emb (ix2 ⟨(j 0).val, hj0⟩ k)) = V c main_v21 _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v38 (((cfg1.win 3).blk t).view.emb (ix2 k ⟨(j 1).val, hj1⟩)) = V c main_v38 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v34 (((cfg1.win 4).blk t).view.emb (ix2 0 ⟨(j 1).val, hj1⟩)) = V c main_v34 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The ten row blocks cover the array: row `r` lies in block `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region. -/
theorem final (c : Dev nD) : (dat1 V c).arrAt 5 cfg1.N = G V c :=
  (dat1 V c).arrAt_eq_of_cover 5 (G V c) (fun t _ => flushed_eq V c t) cover

end Cert.KernelIdeal.Layer1

end
-- ==== Proof.KeepB.lean ====
/-
  The edges' source and destination nodes are computed once, by the first stretch of host operations, from `edge_index`; nothing later writes those two buffers, so every later stretch reads the same two vectors.
-/
import proofs.«108526_j48593259987025_1_alg».proof.Proof.HostFns
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem step4_main_v1 (c : Dev nD) : W4 m ρ c (Proc.devRef .tc main_v1) = W2 m ρ c (Proc.devRef .tc main_v1) :=
  (W4_of_ne m ρ c main_v1 (by decide)).trans (by host_skip)

theorem step6_main_v1 (c : Dev nD) : W6 m ρ c (Proc.devRef .tc main_v1) = W4 m ρ c (Proc.devRef .tc main_v1) :=
  (W6_of_ne m ρ c main_v1 (by decide)).trans (by host_skip)

theorem step8_main_v1 (c : Dev nD) : W8 m ρ c (Proc.devRef .tc main_v1) = W6 m ρ c (Proc.devRef .tc main_v1) :=
  (W8_of_ne m ρ c main_v1 (by decide)).trans (by host_skip)

theorem step10_main_v1 (c : Dev nD) : W10 m ρ c (Proc.devRef .tc main_v1) = W8 m ρ c (Proc.devRef .tc main_v1) :=
  (W10_of_ne m ρ c main_v1 (by decide)).trans (by host_skip)

theorem step12_main_v1 (c : Dev nD) : W12 m ρ c (Proc.devRef .tc main_v1) = W10 m ρ c (Proc.devRef .tc main_v1) :=
  (W12_of_ne m ρ c main_v1 (by decide)).trans (by host_skip)

theorem step14_main_v1 (c : Dev nD) : W14 m ρ c (Proc.devRef .tc main_v1) = W12 m ρ c (Proc.devRef .tc main_v1) :=
  (W14_of_ne m ρ c main_v1 (by decide)).trans (by host_skip)

theorem step4_main_v3 (c : Dev nD) : W4 m ρ c (Proc.devRef .tc main_v3) = W2 m ρ c (Proc.devRef .tc main_v3) :=
  (W4_of_ne m ρ c main_v3 (by decide)).trans (by host_skip)

theorem step6_main_v3 (c : Dev nD) : W6 m ρ c (Proc.devRef .tc main_v3) = W4 m ρ c (Proc.devRef .tc main_v3) :=
  (W6_of_ne m ρ c main_v3 (by decide)).trans (by host_skip)

theorem step8_main_v3 (c : Dev nD) : W8 m ρ c (Proc.devRef .tc main_v3) = W6 m ρ c (Proc.devRef .tc main_v3) :=
  (W8_of_ne m ρ c main_v3 (by decide)).trans (by host_skip)

theorem step10_main_v3 (c : Dev nD) : W10 m ρ c (Proc.devRef .tc main_v3) = W8 m ρ c (Proc.devRef .tc main_v3) :=
  (W10_of_ne m ρ c main_v3 (by decide)).trans (by host_skip)

theorem step12_main_v3 (c : Dev nD) : W12 m ρ c (Proc.devRef .tc main_v3) = W10 m ρ c (Proc.devRef .tc main_v3) :=
  (W12_of_ne m ρ c main_v3 (by decide)).trans (by host_skip)

theorem step14_main_v3 (c : Dev nD) : W14 m ρ c (Proc.devRef .tc main_v3) = W12 m ρ c (Proc.devRef .tc main_v3) :=
  (W14_of_ne m ρ c main_v3 (by decide)).trans (by host_skip)

set_option maxHeartbeats 4000000 in
theorem keep2_main_v1 (c : Dev nD) : W2 m ρ c (Proc.devRef .tc main_v1) = srcK (m ((c : Thread nD τ).loc main_arg1)) := by
  refine (W2_of_ne m ρ c main_v1 (by decide)).trans ?_
  show StableHlo.after hostOps0 (W0 m ρ c) (Proc.devRef .tc main_v1) = _
  after_results
  rfl

set_option maxHeartbeats 4000000 in
theorem keep2_main_v3 (c : Dev nD) : W2 m ρ c (Proc.devRef .tc main_v3) = dstK (m ((c : Thread nD τ).loc main_arg1)) := by
  refine (W2_of_ne m ρ c main_v3 (by decide)).trans ?_
  show StableHlo.after hostOps0 (W0 m ρ c) (Proc.devRef .tc main_v3) = _
  after_results
  rfl

theorem keep4_main_v1 (c : Dev nD) : W4 m ρ c (Proc.devRef .tc main_v1) = srcK (m ((c : Thread nD τ).loc main_arg1)) :=
  (step4_main_v1 m ρ c).trans (keep2_main_v1 m ρ c)

theorem keep6_main_v1 (c : Dev nD) : W6 m ρ c (Proc.devRef .tc main_v1) = srcK (m ((c : Thread nD τ).loc main_arg1)) :=
  (step6_main_v1 m ρ c).trans (keep4_main_v1 m ρ c)

theorem keep8_main_v1 (c : Dev nD) : W8 m ρ c (Proc.devRef .tc main_v1) = srcK (m ((c : Thread nD τ).loc main_arg1)) :=
  (step8_main_v1 m ρ c).trans (keep6_main_v1 m ρ c)

theorem keep10_main_v1 (c : Dev nD) : W10 m ρ c (Proc.devRef .tc main_v1) = srcK (m ((c : Thread nD τ).loc main_arg1)) :=
  (step10_main_v1 m ρ c).trans (keep8_main_v1 m ρ c)

theorem keep12_main_v1 (c : Dev nD) : W12 m ρ c (Proc.devRef .tc main_v1) = srcK (m ((c : Thread nD τ).loc main_arg1)) :=
  (step12_main_v1 m ρ c).trans (keep10_main_v1 m ρ c)

theorem keep14_main_v1 (c : Dev nD) : W14 m ρ c (Proc.devRef .tc main_v1) = srcK (m ((c : Thread nD τ).loc main_arg1)) :=
  (step14_main_v1 m ρ c).trans (keep12_main_v1 m ρ c)

theorem keep4_main_v3 (c : Dev nD) : W4 m ρ c (Proc.devRef .tc main_v3) = dstK (m ((c : Thread nD τ).loc main_arg1)) :=
  (step4_main_v3 m ρ c).trans (keep2_main_v3 m ρ c)

theorem keep6_main_v3 (c : Dev nD) : W6 m ρ c (Proc.devRef .tc main_v3) = dstK (m ((c : Thread nD τ).loc main_arg1)) :=
  (step6_main_v3 m ρ c).trans (keep4_main_v3 m ρ c)

theorem keep8_main_v3 (c : Dev nD) : W8 m ρ c (Proc.devRef .tc main_v3) = dstK (m ((c : Thread nD τ).loc main_arg1)) :=
  (step8_main_v3 m ρ c).trans (keep6_main_v3 m ρ c)

theorem keep10_main_v3 (c : Dev nD) : W10 m ρ c (Proc.devRef .tc main_v3) = dstK (m ((c : Thread nD τ).loc main_arg1)) :=
  (step10_main_v3 m ρ c).trans (keep8_main_v3 m ρ c)

theorem keep12_main_v3 (c : Dev nD) : W12 m ρ c (Proc.devRef .tc main_v3) = dstK (m ((c : Thread nD τ).loc main_arg1)) :=
  (step12_main_v3 m ρ c).trans (keep10_main_v3 m ρ c)

theorem keep14_main_v3 (c : Dev nD) : W14 m ρ c (Proc.devRef .tc main_v3) = dstK (m ((c : Thread nD τ).loc main_arg1)) :=
  (step14_main_v3 m ρ c).trans (keep12_main_v3 m ρ c)

end Cert.KernelIdeal.Host

end
-- ==== Proof.Entry1.lean ====
/-
  Graph-convolution layer 2 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer1
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry1_agg (c : Dev nD) : V3 m ρ c main_v31 = aggK (m ((c : Thread nD τ).loc main_arg1)) (W2 m ρ c (Proc.devRef .tc main_v21)) := by
  show StableHlo.after hostOps1 (W2 m ρ c) (Proc.devRef .tc main_v31) = _
  after_results
  rw [keep2_main_v1 m ρ c, keep2_main_v3 m ρ c]
  rfl

/-- The current features are not touched by the stretch. -/
theorem entry1_h (c : Dev nD) : V3 m ρ c main_v21 = (W2 m ρ c (Proc.devRef .tc main_v21)) := by
  show StableHlo.after hostOps1 (W2 m ρ c) (Proc.devRef .tc main_v21) = _
  host_skip

set_option maxHeartbeats 4000000 in
/-- The layer's first weight matrix. -/
theorem entry1_wr (c : Dev nD) : V3 m ρ c main_v36 = wmat (m ((c : Thread nD τ).loc main_arg3)) (1 : Fin 8) := by
  show StableHlo.after hostOps1 (W2 m ρ c) (Proc.devRef .tc main_v36) = _
  after_results
  rw [keep2_main_arg3 m ρ c]
  exact slice_mat (m ((c : Thread nD τ).loc main_arg3)) 1 (by decide) slices_S8x128x128_S1x128x128_1_0_0

set_option maxHeartbeats 4000000 in
/-- The layer's second weight matrix. -/
theorem entry1_ws (c : Dev nD) : V3 m ρ c main_v38 = wmat (m ((c : Thread nD τ).loc main_arg4)) (1 : Fin 8) := by
  show StableHlo.after hostOps1 (W2 m ρ c) (Proc.devRef .tc main_v38) = _
  after_results
  rw [keep2_main_arg4 m ρ c]
  exact slice_mat (m ((c : Thread nD τ).loc main_arg4)) 1 (by decide) slices_S8x128x128_S1x128x128_1_0_0

set_option maxHeartbeats 4000000 in
/-- The layer's bias, read in the one row of the bias array. -/
theorem entry1_b (c : Dev nD) : (fun q : Fin 128 => V3 m ρ c main_v34 (ix2 0 q)) = bvec (m ((c : Thread nD τ).loc main_arg5)) (1 : Fin 8) := by
  have e : V3 m ρ c main_v34 = shapeCast S1x128 (shapeCast S128 (extractStridedSlice S1x128 ![1, 0] (m ((c : Thread nD τ).loc main_arg5)) slices_S8x128_S1x128_1_0) shapeCasts_S1x128_S128) shapeCasts_S128_S1x128 := by
    show StableHlo.after hostOps1 (W2 m ρ c) (Proc.devRef .tc main_v34) = _
    after_results
    rw [keep2_main_arg5 m ρ c]
    rfl
  funext q
  rw [e]
  exact slice_row (m ((c : Thread nD τ).loc main_arg5)) 1 (by decide) slices_S8x128_S1x128_1_0 q

/-- The layer's output array after its region. -/
theorem out1 (c : Dev nD) : W4 m ρ c (Proc.devRef .tc main_v39)
    = GraphConv.hidden (aggK (m ((c : Thread nD τ).loc main_arg1))) (W2 m ρ c (Proc.devRef .tc main_v21)) (wmat (m ((c : Thread nD τ).loc main_arg3)) (1 : Fin 8)) (wmat (m ((c : Thread nD τ).loc main_arg4)) (1 : Fin 8)) (bvec (m ((c : Thread nD τ).loc main_arg5)) (1 : Fin 8)) := by
  refine (W4_arr m ρ c 5).trans ?_
  rw [Layer1.final]
  unfold Layer1.G GraphConv.hidden
  rw [entry1_agg m ρ c, entry1_h m ρ c, entry1_wr m ρ c, entry1_ws m ρ c, entry1_b m ρ c]

end Cert.KernelIdeal.Host

end
-- ==== Proof.Layer2.lean ====
/-
  Grid region 2 of the idealized kernel: graph-convolution layer 3. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k2_pay1 (F := Ideal) x0 x1 x2 x3 x4 (ix2 r c)
      = max ((GraphConv.mm x0 x2 r c + GraphConv.mm x1 x3 r c) + x4 (ix2 0 c)) GraphConv.zeroE := by
  unfold k2_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k2_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block is some point's. -/
theorem idx_onto : ∀ q : Fin 10, ∃ t : Fin cfg2.N, win2_5.index t = ![q.val, 0] :=
  (by decide +kernel : ∀ q : Fin 10, ∃ t : Fin grid2.N, win2_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v49) (V c main_v39) (V c main_v54) (V c main_v56) (fun q => V c main_v52 (ix2 0 q)))

/-- What point `t` writes back is block `t` of that function. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg2.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v49 (((cfg2.win 0).blk t).view.emb (ix2 ⟨(j 0).val, hj0⟩ k)) = V c main_v49 _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v54 (((cfg2.win 2).blk t).view.emb (ix2 k ⟨(j 1).val, hj1⟩)) = V c main_v54 _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  · show V c main_v39 (((cfg2.win 1).blk t).view.emb (ix2 ⟨(j 0).val, hj0⟩ k)) = V c main_v39 _
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_v56 (((cfg2.win 3).blk t).view.emb (ix2 k ⟨(j 1).val, hj1⟩)) = V c main_v56 _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_5.index t (1 : Fin 2) * 128 + 1 * (j 1).val; omega
  · show V c main_v52 (((cfg2.win 4).blk t).view.emb (ix2 0 ⟨(j 1).val, hj1⟩)) = V c main_v52 _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the output array is in point `t`'s block iff each coordinate is in the block's range. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- The ten row blocks cover the array: row `r` lies in block `r / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region. -/
theorem final (c : Dev nD) : (dat2 V c).arrAt 5 cfg2.N = G V c :=
  (dat2 V c).arrAt_eq_of_cover 5 (G V c) (fun t _ => flushed_eq V c t) cover

end Cert.KernelIdeal.Layer2

end
-- ==== Proof.Entry2.lean ====
/-
  Graph-convolution layer 3 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer2
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry2_agg (c : Dev nD) : V5 m ρ c main_v49 = aggK (m ((c : Thread nD τ).loc main_arg1)) (W4 m ρ c (Proc.devRef .tc main_v39)) := by
  show StableHlo.after hostOps2 (W4 m ρ c) (Proc.devRef .tc main_v49) = _
  after_results
  rw [keep4_main_v1 m ρ c, keep4_main_v3 m ρ c]
  rfl

/-- The current features are not touched by the stretch. -/
theorem entry2_h (c : Dev nD) : V5 m ρ c main_v39 = (W4 m ρ c (Proc.devRef .tc main_v39)) := by
  show StableHlo.after hostOps2 (W4 m ρ c) (Proc.devRef .tc main_v39) = _
  host_skip

set_option maxHeartbeats 4000000 in
/-- The layer's first weight matrix. -/
theorem entry2_wr (c : Dev nD) : V5 m ρ c main_v54 = wmat (m ((c : Thread nD τ).loc main_arg3)) (2 : Fin 8) := by
  show StableHlo.after hostOps2 (W4 m ρ c) (Proc.devRef .tc main_v54) = _
  after_results
  rw [keep4_main_arg3 m ρ c]
  exact slice_mat (m ((c : Thread nD τ).loc main_arg3)) 2 (by decide) slices_S8x128x128_S1x128x128_2_0_0

set_option maxHeartbeats 4000000 in
/-- The layer's second weight matrix. -/
theorem entry2_ws (c : Dev nD) : V5 m ρ c main_v56 = wmat (m ((c : Thread nD τ).loc main_arg4)) (2 : Fin 8) := by
  show StableHlo.after hostOps2 (W4 m ρ c) (Proc.devRef .tc main_v56) = _
  after_results
  rw [keep4_main_arg4 m ρ c]
  exact slice_mat (m ((c : Thread nD τ).loc main_arg4)) 2 (by decide) slices_S8x128x128_S1x128x128_2_0_0

set_option maxHeartbeats 4000000 in
/-- The layer's bias, read in the one row of the bias array. -/
theorem entry2_b (c : Dev nD) : (fun q : Fin 128 => V5 m ρ c main_v52 (ix2 0 q)) = bvec (m ((c : Thread nD τ).loc main_arg5)) (2 : Fin 8) := by
  have e : V5 m ρ c main_v52 = shapeCast S1x128 (shapeCast S128 (extractStridedSlice S1x128 ![2, 0] (m ((c : Thread nD τ).loc main_arg5)) slices_S8x128_S1x128_2_0) shapeCasts_S1x128_S128) shapeCasts_S128_S1x128 := by
    show StableHlo.after hostOps2 (W4 m ρ c) (Proc.devRef .tc main_v52) = _
    after_results
    rw [keep4_main_arg5 m ρ c]
    rfl
  funext q
  rw [e]
  exact slice_row (m ((c : Thread nD τ).loc main_arg5)) 2 (by decide) slices_S8x128_S1x128_2_0 q

/-- The layer's output array after its region. -/
theorem out2 (c : Dev nD) : W6 m ρ c (Proc.devRef .tc main_v57)
    = GraphConv.hidden (aggK (m ((c : Thread nD τ).loc main_arg1))) (W4 m ρ c (Proc.devRef .tc main_v39)) (wmat (m ((c : Thread nD τ).loc main_arg3)) (2 : Fin 8)) (wmat (m ((c : Thread nD τ).loc main_arg4)) (2 : Fin 8)) (bvec (m ((c : Thread nD τ).loc main_arg5)) (2 : Fin 8)) := by
  refine (W6_arr m ρ c 5).trans ?_
  rw [Layer2.final]
  unfold Layer2.G GraphConv.hidden
  rw [entry2_agg m ρ c, entry2_h m ρ c, entry2_wr m ρ c, entry2_ws m ρ c, entry2_b m ρ c]

end Cert.KernelIdeal.Host

end
-- ==== Proof.Layer3.lean ====
/-
  Grid region 3 of the idealized kernel: graph-convolution layer 4. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k3_pay1 (F := Ideal) x0 x1 x2 x3 x4 (ix2 r c)
      = max ((GraphConv.mm x0 x2 r c + GraphConv.mm x1 x3 r c) + x4 (ix2 0 c)) GraphConv.zeroE := by
  unfold k3_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k3_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every row block is some point's. -/
theorem idx_onto : ∀ q : Fin 10, ∃ t : Fin cfg3.N, win3_5.index t = ![q.val, 0] :=
  (by decide +kernel : ∀ q : Fin 10, ∃ t : Fin grid3.N, win3_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v67) (V c main_v57) (V c main_v72) (V c main_v74) (fun q => V c main_v70 (ix2 0 q)))

/-- What point `t` writes back is block `t` of that function. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg3.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v67 (((cfg3.win 0).blk t).view.emb (ix2 ⟨(j 0).val, hj0⟩ k)) = V c main_v67 _
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * k.val = k.val; omega
  · show V c main_v72 (((cfg3.win 2).blk t).view.emb (ix2 k ⟨(j 1).val, hj1⟩)) = V c main_v72 _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_5.index t (1 : Fin 2) * 128 + 1 * (j 1).val; omega
  · show V c main_v57 (((cfg3.win 1).blk t).view.emb (ix2 ⟨(j 0).val, hj0⟩ k)) = V c main_v57 _
    refine congrArg _ (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · show V c main_v74 (((cfg3.win 3).blk t).view.emb (ix2 k ⟨(j 1).val, hj1⟩)) = V c main_v74 _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * (j 1).val = win3_5.index t (1 : Fin 2) * 128 + 1 * (j 1).val; omega
  · show V c main_v70 (((cfg3.win 4).blk t).view.emb (ix2 0 ⟨(j 1).val, hj1⟩)) = V c main_v70 _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega

/-- An index of the output array is in point `t`'s block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v75).slice (win3_5.rect t)).set ↔ _
  rw [View.set_slice_whole, Rect.mem_set_unit]
  exact Iff.rfl

/-- The ten row blocks cover the array: row `r` lies in block `r / 5000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region. -/
theorem final (c : Dev nD) : (dat3 V c).arrAt 5 cfg3.N = G V c :=
  (dat3 V c).arrAt_eq_of_cover 5 (G V c) (fun t _ => flushed_eq V c t) cover

end Cert.KernelIdeal.Layer3

end
-- ==== Proof.Entry3.lean ====
/-
  Graph-convolution layer 4 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer3
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry3_agg (c : Dev nD) : V7 m ρ c main_v67 = aggK (m ((c : Thread nD τ).loc main_arg1)) (W6 m ρ c (Proc.devRef .tc main_v57)) := by
  show StableHlo.after hostOps3 (W6 m ρ c) (Proc.devRef .tc main_v67) = _
  after_results
  rw [keep6_main_v1 m ρ c, keep6_main_v3 m ρ c]
  rfl

/-- The current features are not touched by the stretch. -/
theorem entry3_h (c : Dev nD) : V7 m ρ c main_v57 = (W6 m ρ c (Proc.devRef .tc main_v57)) := by
  show StableHlo.after hostOps3 (W6 m ρ c) (Proc.devRef .tc main_v57) = _
  host_skip

set_option maxHeartbeats 4000000 in
/-- The layer's first weight matrix. -/
theorem entry3_wr (c : Dev nD) : V7 m ρ c main_v72 = wmat (m ((c : Thread nD τ).loc main_arg3)) (3 : Fin 8) := by
  show StableHlo.after hostOps3 (W6 m ρ c) (Proc.devRef .tc main_v72) = _
  after_results
  rw [keep6_main_arg3 m ρ c]
  exact slice_mat (m ((c : Thread nD τ).loc main_arg3)) 3 (by decide) slices_S8x128x128_S1x128x128_3_0_0

set_option maxHeartbeats 4000000 in
/-- The layer's second weight matrix. -/
theorem entry3_ws (c : Dev nD) : V7 m ρ c main_v74 = wmat (m ((c : Thread nD τ).loc main_arg4)) (3 : Fin 8) := by
  show StableHlo.after hostOps3 (W6 m ρ c) (Proc.devRef .tc main_v74) = _
  after_results
  rw [keep6_main_arg4 m ρ c]
  exact slice_mat (m ((c : Thread nD τ).loc main_arg4)) 3 (by decide) slices_S8x128x128_S1x128x128_3_0_0

set_option maxHeartbeats 4000000 in
/-- The layer's bias, read in the one row of the bias array. -/
theorem entry3_b (c : Dev nD) : (fun q : Fin 128 => V7 m ρ c main_v70 (ix2 0 q)) = bvec (m ((c : Thread nD τ).loc main_arg5)) (3 : Fin 8) := by
  have e : V7 m ρ c main_v70 = shapeCast S1x128 (shapeCast S128 (extractStridedSlice S1x128 ![3, 0] (m ((c : Thread nD τ).loc main_arg5)) slices_S8x128_S1x128_3_0) shapeCasts_S1x128_S128) shapeCasts_S128_S1x128 := by
    show StableHlo.after hostOps3 (W6 m ρ c) (Proc.devRef .tc main_v70) = _
    after_results
    rw [keep6_main_arg5 m ρ c]
    rfl
  funext q
  rw [e]
  exact slice_row (m ((c : Thread nD τ).loc main_arg5)) 3 (by decide) slices_S8x128_S1x128_3_0 q

/-- The layer's output array after its region. -/
theorem out3 (c : Dev nD) : W8 m ρ c (Proc.devRef .tc main_v75)
    = GraphConv.hidden (aggK (m ((c : Thread nD τ).loc main_arg1))) (W6 m ρ c (Proc.devRef .tc main_v57)) (wmat (m ((c : Thread nD τ).loc main_arg3)) (3 : Fin 8)) (wmat (m ((c : Thread nD τ).loc main_arg4)) (3 : Fin 8)) (bvec (m ((c : Thread nD τ).loc main_arg5)) (3 : Fin 8)) := by
  refine (W8_arr m ρ c 5).trans ?_
  rw [Layer3.final]
  unfold Layer3.G GraphConv.hidden
  rw [entry3_agg m ρ c, entry3_h m ρ c, entry3_wr m ρ c, entry3_ws m ρ c, entry3_b m ρ c]

end Cert.KernelIdeal.Host

end
-- ==== Proof.Layer4.lean ====
/-
  Grid region 4 of the idealized kernel: graph-convolution layer 5. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer4

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k4_pay1 (F := Ideal) x0 x1 x2 x3 x4 (ix2 r c)
      = max ((GraphConv.mm x0 x2 r c + GraphConv.mm x1 x3 r c) + x4 (ix2 0 c)) GraphConv.zeroE := by
  unfold k4_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k4_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) ≤ 9 ∧ win4_5.index t (1 : Fin 2) = 0 :=
  (by decide +kernel : ∀ t : Fin grid4.N, _)

/-- Every row block is some point's. -/
theorem idx_onto : ∀ q : Fin 10, ∃ t : Fin cfg4.N, win4_5.index t = ![q.val, 0] :=
  (by decide +kernel : ∀ q : Fin 10, ∃ t : Fin grid4.N, win4_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v85) (V c main_v75) (V c main_v90) (V c main_v92) (fun q => V c main_v88 (ix2 0 q)))

/-- What point `t` writes back is block `t` of that function. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg4.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v85 (((cfg4.win 0).blk t).view.emb (ix2 ⟨(j 0).val, hj0⟩ k)) = V c main_v85 _
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * k.val = k.val; omega
  · show V c main_v90 (((cfg4.win 2).blk t).view.emb (ix2 k ⟨(j 1).val, hj1⟩)) = V c main_v90 _
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * (j 1).val = win4_5.index t (1 : Fin 2) * 128 + 1 * (j 1).val; omega
  · show V c main_v75 (((cfg4.win 1).blk t).view.emb (ix2 ⟨(j 0).val, hj0⟩ k)) = V c main_v75 _
    refine congrArg _ (funext fun a => Fin.ext ?_)
    match a with
    | ⟨0, _⟩ => show win4_1.index t (0 : Fin 2) * 5000 + 1 * (j 0).val = win4_5.index t (0 : Fin 2) * 5000 + 1 * (j 0).val; omega
    | ⟨1, _⟩ => show win4_1.index t (1 : Fin 2) * 128 + 1 * k.val = k.val; omega
  · show V c main_v92 (((cfg4.win 3).blk t).view.emb (ix2 k ⟨(j 1).val, hj1⟩)) = V c main_v92 _
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * (j 1).val = win4_5.index t (1 : Fin 2) * 128 + 1 * (j 1).val; omega
  · show V c main_v88 (((cfg4.win 4).blk t).view.emb (ix2 0 ⟨(j 1).val, hj1⟩)) = V c main_v88 _
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * (j 1).val = win4_5.index t (1 : Fin 2) * 128 + 1 * (j 1).val; omega

/-- An index of the output array is in point `t`'s block iff each coordinate is in the block's range. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v93).slice (win4_5.rect t)).set ↔ _
  rw [View.set_slice_whole, Rect.mem_set_unit]
  exact Iff.rfl

/-- The ten row blocks cover the array: row `r` lies in block `r / 5000`. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The output array after the region. -/
theorem final (c : Dev nD) : (dat4 V c).arrAt 5 cfg4.N = G V c :=
  (dat4 V c).arrAt_eq_of_cover 5 (G V c) (fun t _ => flushed_eq V c t) cover

end Cert.KernelIdeal.Layer4

end
-- ==== Proof.Entry4.lean ====
/-
  Graph-convolution layer 5 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer4
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry4_agg (c : Dev nD) : V9 m ρ c main_v85 = aggK (m ((c : Thread nD τ).loc main_arg1)) (W8 m ρ c (Proc.devRef .tc main_v75)) := by
  show StableHlo.after hostOps4 (W8 m ρ c) (Proc.devRef .tc main_v85) = _
  after_results
  rw [keep8_main_v1 m ρ c, keep8_main_v3 m ρ c]
  rfl

/-- The current features are not touched by the stretch. -/
theorem entry4_h (c : Dev nD) : V9 m ρ c main_v75 = (W8 m ρ c (Proc.devRef .tc main_v75)) := by
  show StableHlo.after hostOps4 (W8 m ρ c) (Proc.devRef .tc main_v75) = _
  host_skip

set_option maxHeartbeats 4000000 in
/-- The layer's first weight matrix. -/
theorem entry4_wr (c : Dev nD) : V9 m ρ c main_v90 = wmat (m ((c : Thread nD τ).loc main_arg3)) (4 : Fin 8) := by
  show StableHlo.after hostOps4 (W8 m ρ c) (Proc.devRef .tc main_v90) = _
  after_results
  rw [keep8_main_arg3 m ρ c]
  exact slice_mat (m ((c : Thread nD τ).loc main_arg3)) 4 (by decide) slices_S8x128x128_S1x128x128_4_0_0

set_option maxHeartbeats 4000000 in
/-- The layer's second weight matrix. -/
theorem entry4_ws (c : Dev nD) : V9 m ρ c main_v92 = wmat (m ((c : Thread nD τ).loc main_arg4)) (4 : Fin 8) := by
  show StableHlo.after hostOps4 (W8 m ρ c) (Proc.devRef .tc main_v92) = _
  after_results
  rw [keep8_main_arg4 m ρ c]
  exact slice_mat (m ((c : Thread nD τ).loc main_arg4)) 4 (by decide) slices_S8x128x128_S1x128x128_4_0_0

set_option maxHeartbeats 4000000 in
/-- The layer's bias, read in the one row of the bias array. -/
theorem entry4_b (c : Dev nD) : (fun q : Fin 128 => V9 m ρ c main_v88 (ix2 0 q)) = bvec (m ((c : Thread nD τ).loc main_arg5)) (4 : Fin 8) := by
  have e : V9 m ρ c main_v88 = shapeCast S1x128 (shapeCast S128 (extractStridedSlice S1x128 ![4, 0] (m ((c : Thread nD τ).loc main_arg5)) slices_S8x128_S1x128_4_0) shapeCasts_S1x128_S128) shapeCasts_S128_S1x128 := by
    show StableHlo.after hostOps4 (W8 m ρ c) (Proc.devRef .tc main_v88) = _
    after_results
    rw [keep8_main_arg5 m ρ c]
    rfl
  funext q
  rw [e]
  exact slice_row (m ((c : Thread nD τ).loc main_arg5)) 4 (by decide) slices_S8x128_S1x128_4_0 q

/-- The layer's output array after its region. -/
theorem out4 (c : Dev nD) : W10 m ρ c (Proc.devRef .tc main_v93)
    = GraphConv.hidden (aggK (m ((c : Thread nD τ).loc main_arg1))) (W8 m ρ c (Proc.devRef .tc main_v75)) (wmat (m ((c : Thread nD τ).loc main_arg3)) (4 : Fin 8)) (wmat (m ((c : Thread nD τ).loc main_arg4)) (4 : Fin 8)) (bvec (m ((c : Thread nD τ).loc main_arg5)) (4 : Fin 8)) := by
  refine (W10_arr m ρ c 5).trans ?_
  rw [Layer4.final]
  unfold Layer4.G GraphConv.hidden
  rw [entry4_agg m ρ c, entry4_h m ρ c, entry4_wr m ρ c, entry4_ws m ρ c, entry4_b m ρ c]

end Cert.KernelIdeal.Host

end
-- ==== Proof.Layer5.lean ====
/-
  Grid region 5 of the idealized kernel: graph-convolution layer 6. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer5

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k5_pay1 (F := Ideal) x0 x1 x2 x3 x4 (ix2 r c)
      = max ((GraphConv.mm x0 x2 r c + GraphConv.mm x1 x3 r c) + x4 (ix2 0 c)) GraphConv.zeroE := by
  unfold k5_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k5_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every row block is some point's. -/
theorem idx_onto : ∀ q : Fin 10, ∃ t : Fin cfg5.N, win5_5.index t = ![q.val, 0] :=
  (by decide +kernel : ∀ q : Fin 10, ∃ t : Fin grid5.N, win5_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v103) (V c main_v93) (V c main_v108) (V c main_v110) (fun q => V c main_v106 (ix2 0 q)))

/-- What point `t` writes back is block `t` of that function. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg5.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v103 (((cfg5.win 0).blk t).view.emb (ix2 ⟨(j 0).val, hj0⟩ k)) = V c main_v103 _
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * k.val = k.val; omega
  · show V c main_v108 (((cfg5.win 2).blk t).view.emb (ix2 k ⟨(j 1).val, hj1⟩)) = V c main_v108 _
    refine congrArg _ (funext fun a => Fin.ext ?_)
    match a with
    | ⟨0, _⟩ => show win5_2.index t (0 : Fin 2) * 128 + 1 * k.val = k.val; omega
    | ⟨1, _⟩ => show win5_2.index t (1 : Fin 2) * 128 + 1 * (j 1).val = win5_5.index t (1 : Fin 2) * 128 + 1 * (j 1).val; omega
  · show V c main_v93 (((cfg5.win 1).blk t).view.emb (ix2 ⟨(j 0).val, hj0⟩ k)) = V c main_v93 _
    refine congrArg _ (funext fun a => Fin.ext ?_)
    match a with
    | ⟨0, _⟩ => show win5_1.index t (0 : Fin 2) * 5000 + 1 * (j 0).val = win5_5.index t (0 : Fin 2) * 5000 + 1 * (j 0).val; omega
    | ⟨1, _⟩ => show win5_1.index t (1 : Fin 2) * 128 + 1 * k.val = k.val; omega
  · show V c main_v110 (((cfg5.win 3).blk t).view.emb (ix2 k ⟨(j 1).val, hj1⟩)) = V c main_v110 _
    refine congrArg _ (funext fun a => Fin.ext ?_)
    match a with
    | ⟨0, _⟩ => show win5_3.index t (0 : Fin 2) * 128 + 1 * k.val = k.val; omega
    | ⟨1, _⟩ => show win5_3.index t (1 : Fin 2) * 128 + 1 * (j 1).val = win5_5.index t (1 : Fin 2) * 128 + 1 * (j 1).val; omega
  · show V c main_v106 (((cfg5.win 4).blk t).view.emb (ix2 0 ⟨(j 1).val, hj1⟩)) = V c main_v106 _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega

/-- An index of the output array is in point `t`'s block iff each coordinate is in the block's range. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v111).slice (win5_5.rect t)).set ↔ _
  rw [View.set_slice_whole, Rect.mem_set_unit]
  exact Iff.rfl

/-- The ten row blocks cover the array: row `r` lies in block `r / 5000`. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := idx_onto ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the region. -/
theorem final (c : Dev nD) : (dat5 V c).arrAt 5 cfg5.N = G V c :=
  (dat5 V c).arrAt_eq_of_cover 5 (G V c) (fun t _ => flushed_eq V c t) cover

end Cert.KernelIdeal.Layer5

end
-- ==== Proof.Entry5.lean ====
/-
  Graph-convolution layer 6 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer5
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry5_agg (c : Dev nD) : V11 m ρ c main_v103 = aggK (m ((c : Thread nD τ).loc main_arg1)) (W10 m ρ c (Proc.devRef .tc main_v93)) := by
  show StableHlo.after hostOps5 (W10 m ρ c) (Proc.devRef .tc main_v103) = _
  after_results
  rw [keep10_main_v1 m ρ c, keep10_main_v3 m ρ c]
  rfl

/-- The current features are not touched by the stretch. -/
theorem entry5_h (c : Dev nD) : V11 m ρ c main_v93 = (W10 m ρ c (Proc.devRef .tc main_v93)) := by
  show StableHlo.after hostOps5 (W10 m ρ c) (Proc.devRef .tc main_v93) = _
  host_skip

set_option maxHeartbeats 4000000 in
/-- The layer's first weight matrix. -/
theorem entry5_wr (c : Dev nD) : V11 m ρ c main_v108 = wmat (m ((c : Thread nD τ).loc main_arg3)) (5 : Fin 8) := by
  show StableHlo.after hostOps5 (W10 m ρ c) (Proc.devRef .tc main_v108) = _
  after_results
  rw [keep10_main_arg3 m ρ c]
  exact slice_mat (m ((c : Thread nD τ).loc main_arg3)) 5 (by decide) slices_S8x128x128_S1x128x128_5_0_0

set_option maxHeartbeats 4000000 in
/-- The layer's second weight matrix. -/
theorem entry5_ws (c : Dev nD) : V11 m ρ c main_v110 = wmat (m ((c : Thread nD τ).loc main_arg4)) (5 : Fin 8) := by
  show StableHlo.after hostOps5 (W10 m ρ c) (Proc.devRef .tc main_v110) = _
  after_results
  rw [keep10_main_arg4 m ρ c]
  exact slice_mat (m ((c : Thread nD τ).loc main_arg4)) 5 (by decide) slices_S8x128x128_S1x128x128_5_0_0

set_option maxHeartbeats 4000000 in
/-- The layer's bias, read in the one row of the bias array. -/
theorem entry5_b (c : Dev nD) : (fun q : Fin 128 => V11 m ρ c main_v106 (ix2 0 q)) = bvec (m ((c : Thread nD τ).loc main_arg5)) (5 : Fin 8) := by
  have e : V11 m ρ c main_v106 = shapeCast S1x128 (shapeCast S128 (extractStridedSlice S1x128 ![5, 0] (m ((c : Thread nD τ).loc main_arg5)) slices_S8x128_S1x128_5_0) shapeCasts_S1x128_S128) shapeCasts_S128_S1x128 := by
    show StableHlo.after hostOps5 (W10 m ρ c) (Proc.devRef .tc main_v106) = _
    after_results
    rw [keep10_main_arg5 m ρ c]
    rfl
  funext q
  rw [e]
  exact slice_row (m ((c : Thread nD τ).loc main_arg5)) 5 (by decide) slices_S8x128_S1x128_5_0 q

/-- The layer's output array after its region. -/
theorem out5 (c : Dev nD) : W12 m ρ c (Proc.devRef .tc main_v111)
    = GraphConv.hidden (aggK (m ((c : Thread nD τ).loc main_arg1))) (W10 m ρ c (Proc.devRef .tc main_v93)) (wmat (m ((c : Thread nD τ).loc main_arg3)) (5 : Fin 8)) (wmat (m ((c : Thread nD τ).loc main_arg4)) (5 : Fin 8)) (bvec (m ((c : Thread nD τ).loc main_arg5)) (5 : Fin 8)) := by
  refine (W12_arr m ρ c 5).trans ?_
  rw [Layer5.final]
  unfold Layer5.G GraphConv.hidden
  rw [entry5_agg m ρ c, entry5_h m ρ c, entry5_wr m ρ c, entry5_ws m ρ c, entry5_b m ρ c]

end Cert.KernelIdeal.Host

end
-- ==== Proof.Layer6.lean ====
/-
  Grid region 6 of the idealized kernel: graph-convolution layer 7. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, clamped below at zero (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer6

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k6_pay1 (F := Ideal) x0 x1 x2 x3 x4 (ix2 r c)
      = max ((GraphConv.mm x0 x2 r c + GraphConv.mm x1 x3 r c) + x4 (ix2 0 c)) GraphConv.zeroE := by
  unfold k6_pay1
  simp only [shapeCast_self]
  rw [show dot_S5000x128_S128x128_S5000x128_1_0_0_1_n_n = DotDims.plain 5000 128 128 from rfl]
  show max ((_ + _) + broadcastTo S5000x128 x4 broadcasts_S1x128_S5000x128 (ix2 r c)) _ = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ max (congrArg₂ (· + ·) (congrArg₂ (· + ·) e1 e2) rfl) rfl

/-- The same at any index of the block. -/
theorem pay_at (x0 x1 : Vec Ideal S5000x128 .f32) (x2 x3 : Vec Ideal S128x128 .f32) (x4 : Vec Ideal S1x128 .f32) (j : S5000x128.Idx) :
    k6_pay1 (F := Ideal) x0 x1 x2 x3 x4 j
      = max ((GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩)) GraphConv.zeroE := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg6.N,
    win6_0.index t (0 : Fin 2) = win6_5.index t (0 : Fin 2) ∧ win6_0.index t (1 : Fin 2) = 0
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) ≤ 9 ∧ win6_5.index t (1 : Fin 2) = 0 :=
  (by decide +kernel : ∀ t : Fin grid6.N, _)

/-- Every row block is some point's. -/
theorem idx_onto : ∀ q : Fin 10, ∃ t : Fin cfg6.N, win6_5.index t = ![q.val, 0] :=
  (by decide +kernel : ∀ q : Fin 10, ∃ t : Fin grid6.N, win6_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.relu (GraphConv.affine (V c main_v121) (V c main_v111) (V c main_v126) (V c main_v128) (fun q => V c main_v124 (ix2 0 q)))

/-- What point `t` writes back is block `t` of that function. -/
theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg6.win 5).blk t).view.emb j)
  unfold G GraphConv.relu GraphConv.affine GraphConv.mm
  have hj0 : (j 0).val < 5000 := (j 0).isLt
  have hj1 : (j 1).val < 128 := (j 1).isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v121 (((cfg6.win 0).blk t).view.emb (ix2 ⟨(j 0).val, hj0⟩ k)) = V c main_v121 _
    refine congrArg _ (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * k.val = k.val; omega
  · show V c main_v126 (((cfg6.win 2).blk t).view.emb (ix2 k ⟨(j 1).val, hj1⟩)) = V c main_v126 _
    refine congrArg _ (funext fun a => Fin.ext ?_)
    match a with
    | ⟨0, _⟩ => show win6_2.index t (0 : Fin 2) * 128 + 1 * k.val = k.val; omega
    | ⟨1, _⟩ => show win6_2.index t (1 : Fin 2) * 128 + 1 * (j 1).val = win6_5.index t (1 : Fin 2) * 128 + 1 * (j 1).val; omega
  · show V c main_v111 (((cfg6.win 1).blk t).view.emb (ix2 ⟨(j 0).val, hj0⟩ k)) = V c main_v111 _
    refine congrArg _ (funext fun a => Fin.ext ?_)
    match a with
    | ⟨0, _⟩ => show win6_1.index t (0 : Fin 2) * 5000 + 1 * (j 0).val = win6_5.index t (0 : Fin 2) * 5000 + 1 * (j 0).val; omega
    | ⟨1, _⟩ => show win6_1.index t (1 : Fin 2) * 128 + 1 * k.val = k.val; omega
  · show V c main_v128 (((cfg6.win 3).blk t).view.emb (ix2 k ⟨(j 1).val, hj1⟩)) = V c main_v128 _
    refine congrArg _ (funext fun a => Fin.ext ?_)
    match a with
    | ⟨0, _⟩ => show win6_3.index t (0 : Fin 2) * 128 + 1 * k.val = k.val; omega
    | ⟨1, _⟩ => show win6_3.index t (1 : Fin 2) * 128 + 1 * (j 1).val = win6_5.index t (1 : Fin 2) * 128 + 1 * (j 1).val; omega
  · show V c main_v124 (((cfg6.win 4).blk t).view.emb (ix2 0 ⟨(j 1).val, hj1⟩)) = V c main_v124 _
    refine congrArg _ (funext fun a => Fin.ext ?_)
    match a with
    | ⟨0, _⟩ => show win6_4.index t (0 : Fin 2) * 1 + 1 * 0 = 0; omega
    | ⟨1, _⟩ => show win6_4.index t (1 : Fin 2) * 128 + 1 * (j 1).val = win6_5.index t (1 : Fin 2) * 128 + 1 * (j 1).val; omega

/-- An index of the output array is in point `t`'s block iff each coordinate is in the block's range. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v129).slice (win6_5.rect t)).set ↔ _
  rw [View.set_slice_whole, Rect.mem_set_unit]
  exact Iff.rfl

/-- The ten row blocks cover the array: row `r` lies in block `r / 5000`. -/
theorem cover (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  obtain ⟨t, ht⟩ := idx_onto ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- The output array after the region. -/
theorem final (c : Dev nD) : (dat6 V c).arrAt 5 cfg6.N = G V c :=
  (dat6 V c).arrAt_eq_of_cover 5 (G V c) (fun t _ => flushed_eq V c t) cover

end Cert.KernelIdeal.Layer6

end
-- ==== Proof.Entry6.lean ====
/-
  Graph-convolution layer 7 of the idealized kernel, from the contents of @main's buffers before its stretch of host
  operations to the contents after its grid region: the stretch computes the neighbourhood sum of the current node features
  and slices out the layer's weights and bias; the region then stores `(A h · W_rel + h · W_root) + b`, clamped below at zero.
-/
import proofs.«108526_j48593259987025_1_alg».proof.Proof.HostFns
import proofs.«108526_j48593259987025_1_alg».proof.Proof.Layer6
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry6_agg (c : Dev nD) : V13 m ρ c main_v121 = aggK (m ((c : Thread nD τ).loc main_arg1)) (W12 m ρ c (Proc.devRef .tc main_v111)) := by
  show StableHlo.after hostOps6 (W12 m ρ c) (Proc.devRef .tc main_v121) = _
  after_results
  rw [keep12_main_v1 m ρ c, keep12_main_v3 m ρ c]
  rfl

/-- The current features are not touched by the stretch. -/
theorem entry6_h (c : Dev nD) : V13 m ρ c main_v111 = (W12 m ρ c (Proc.devRef .tc main_v111)) := by
  show StableHlo.after hostOps6 (W12 m ρ c) (Proc.devRef .tc main_v111) = _
  host_skip

set_option maxHeartbeats 4000000 in
/-- The layer's first weight matrix. -/
theorem entry6_wr (c : Dev nD) : V13 m ρ c main_v126 = wmat (m ((c : Thread nD τ).loc main_arg3)) (6 : Fin 8) := by
  show StableHlo.after hostOps6 (W12 m ρ c) (Proc.devRef .tc main_v126) = _
  after_results
  rw [keep12_main_arg3 m ρ c]
  exact slice_mat (m ((c : Thread nD τ).loc main_arg3)) 6 (by decide) slices_S8x128x128_S1x128x128_6_0_0

set_option maxHeartbeats 4000000 in
/-- The layer's second weight matrix. -/
theorem entry6_ws (c : Dev nD) : V13 m ρ c main_v128 = wmat (m ((c : Thread nD τ).loc main_arg4)) (6 : Fin 8) := by
  show StableHlo.after hostOps6 (W12 m ρ c) (Proc.devRef .tc main_v128) = _
  after_results
  rw [keep12_main_arg4 m ρ c]
  exact slice_mat (m ((c : Thread nD τ).loc main_arg4)) 6 (by decide) slices_S8x128x128_S1x128x128_6_0_0

set_option maxHeartbeats 4000000 in
/-- The layer's bias, read in the one row of the bias array. -/
theorem entry6_b (c : Dev nD) : (fun q : Fin 128 => V13 m ρ c main_v124 (ix2 0 q)) = bvec (m ((c : Thread nD τ).loc main_arg5)) (6 : Fin 8) := by
  have e : V13 m ρ c main_v124 = shapeCast S1x128 (shapeCast S128 (extractStridedSlice S1x128 ![6, 0] (m ((c : Thread nD τ).loc main_arg5)) slices_S8x128_S1x128_6_0) shapeCasts_S1x128_S128) shapeCasts_S128_S1x128 := by
    show StableHlo.after hostOps6 (W12 m ρ c) (Proc.devRef .tc main_v124) = _
    after_results
    rw [keep12_main_arg5 m ρ c]
    rfl
  funext q
  rw [e]
  exact slice_row (m ((c : Thread nD τ).loc main_arg5)) 6 (by decide) slices_S8x128_S1x128_6_0 q

/-- The layer's output array after its region. -/
theorem out6 (c : Dev nD) : W14 m ρ c (Proc.devRef .tc main_v129)
    = GraphConv.hidden (aggK (m ((c : Thread nD τ).loc main_arg1))) (W12 m ρ c (Proc.devRef .tc main_v111)) (wmat (m ((c : Thread nD τ).loc main_arg3)) (6 : Fin 8)) (wmat (m ((c : Thread nD τ).loc main_arg4)) (6 : Fin 8)) (bvec (m ((c : Thread nD τ).loc main_arg5)) (6 : Fin 8)) := by
  refine (W14_arr m ρ c 5).trans ?_
  rw [Layer6.final]
  unfold Layer6.G GraphConv.hidden
  rw [entry6_agg m ρ c, entry6_h m ρ c, entry6_wr m ρ c, entry6_ws m ρ c, entry6_b m ρ c]

end Cert.KernelIdeal.Host

end
-- ==== Proof.Layer7.lean ====
/-
  Grid region 7 of the idealized kernel: graph-convolution layer 8. The region's grid has ten points; point `t` stages rows
  `5000 t … 5000 t + 4999` of the aggregated features and of the node features, the two whole 128 × 128 weight matrices and the
  bias row, and writes the same rows of the output. Its body computes, for a staged row `r` and a column `c`,
  `(Σ_k agg (r, k) · W_rel (k, c) + Σ_k h (r, k) · W_root (k, c)) + b (0, c)`, not clamped (over the extended reals a
  narrowing of the float format is the identity and a matrix product into a zero accumulator is the plain sum). The ten row
  blocks tile the 50000 rows, so the output array ends holding that function of the arrays the region finds, index by index.
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer7

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the staged rows, at `(r, c)`: the row's entry in column `c`. -/
theorem bias_apply (x4 : Vec Ideal S1x128 .f32) (r : Fin 5000) (c : Fin 128) :
    broadcastTo S5000x128 x4 broadcasts_S1x128_S5000x128 (ix2 r c) = x4 (ix2 0 c) :=
  broadcastTo_apply x4 broadcasts_S1x128_S5000x128 (ix2 r c) (ix2 0 c) (fun a => match a with
    | ⟨0, _⟩ => by show (0 : Nat) = if (1 : Nat) = 1 then 0 else _; rw [if_pos rfl]
    | ⟨1, _⟩ => by show c.val = if (128 : Nat) = 1 then 0 else c.val; rw [if_neg (by decide)])

/-- The body's stored value at row `r`, column `c` of the staged block. -/
theorem pay_apply (x0 x1 : Vec Ideal S5000x128 .f32) (x2 x3 : Vec Ideal S128x128 .f32) (x4 : Vec Ideal S1x128 .f32) (r : Fin 5000) (c : Fin 128) :
    k7_pay1 (F := Ideal) x0 x1 x2 x3 x4 (ix2 r c)
      = (GraphConv.mm x0 x2 r c + GraphConv.mm x1 x3 r c) + x4 (ix2 0 c) := by
  unfold k7_pay1
  simp only [shapeCast_self]
  rw [show dot_S5000x128_S128x128_S5000x128_1_0_0_1_n_n = DotDims.plain 5000 128 128 from rfl]
  show (_ + _) + broadcastTo S5000x128 x4 broadcasts_S1x128_S5000x128 (ix2 r c) = _
  rw [bias_apply]
  have e1 := PlainDot.matmul_apply_ix2 (M := 5000) (K := 128) (N := 128) none (truncf .bf16 x0 bitsLt_bf16_f32) (truncf .bf16 x2 bitsLt_bf16_f32) r c
  have e2 := PlainDot.matmul_apply_ix2 (M := 5000) (K := 128) (N := 128) none (truncf .bf16 x1 bitsLt_bf16_f32) (truncf .bf16 x3 bitsLt_bf16_f32) r c
  exact congrArg₂ (· + ·) (congrArg₂ (· + ·) e1 e2) rfl

/-- The same at any index of the block. -/
theorem pay_at (x0 x1 : Vec Ideal S5000x128 .f32) (x2 x3 : Vec Ideal S128x128 .f32) (x4 : Vec Ideal S1x128 .f32) (j : S5000x128.Idx) :
    k7_pay1 (F := Ideal) x0 x1 x2 x3 x4 j
      = (GraphConv.mm x0 x2 ⟨(j 0).val, idx2_lt0 j⟩ ⟨(j 1).val, idx2_lt1 j⟩ + GraphConv.mm x1 x3 ⟨(j 0).val, idx2_lt0 j⟩ ⟨(j 1).val, idx2_lt1 j⟩)
          + x4 (ix2 0 ⟨(j 1).val, idx2_lt1 j⟩) := by
  have h := pay_apply x0 x1 x2 x3 x4 ⟨(j 0).val, idx2_lt0 j⟩ ⟨(j 1).val, idx2_lt1 j⟩
  rwa [show ix2 (⟨(j 0).val, idx2_lt0 j⟩ : Fin 5000) (⟨(j 1).val, idx2_lt1 j⟩ : Fin 128) = j from (eq_ix2 j).symm] at h

theorem hz : (![0, 0] : Fin 2 → Nat) = fun _ => 0 := funext fun a => by fin_cases a <;> rfl

/-- The block indices over the grid: the two row-blocked inputs move with the output's row block, the weights and the bias
    stay at block zero, and the output's row block stays below ten. -/
theorem idx_facts : ∀ t : Fin cfg7.N,
    win7_0.index t (0 : Fin 2) = win7_5.index t (0 : Fin 2) ∧ win7_0.index t (1 : Fin 2) = 0
    ∧ win7_1.index t (0 : Fin 2) = win7_5.index t (0 : Fin 2) ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) ≤ 9 ∧ win7_5.index t (1 : Fin 2) = 0 :=
  (by decide +kernel : ∀ t : Fin grid7.N, _)

/-- Every row block is some point's. -/
theorem idx_onto : ∀ q : Fin 10, ∃ t : Fin cfg7.N, win7_5.index t = ![q.val, 0] :=
  (by decide +kernel : ∀ q : Fin 10, ∃ t : Fin grid7.N, win7_5.index t = ![q.val, 0])

variable (V : (c : Dev nD) → (b : Ref sig .tc) → Buf (Elt Ideal) ((c : Thread nD τ).loc b))

/-- What the region's output array ends holding, from the arrays the region finds. -/
def G (c : Dev nD) : GraphConv.Mat 50000 128 :=
  GraphConv.affine (V c main_v139) (V c main_v129) (V c main_v144) (V c main_v146) (fun q => V c main_v142 (ix2 0 q))

/-- What point `t` writes back is block `t` of that function. -/
theorem flushed_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at _ _ _ _ _ j).trans ?_
  show _ = G V c (((cfg7.win 5).blk t).view.emb j)
  unfold G GraphConv.affine GraphConv.mm
  have hj0 : (j 0).val < 5000 := (j 0).isLt
  have hj1 : (j 1).val < 128 := (j 1).isLt
  refine (congrArg₂ (· + ·) (congrArg₂ (· + ·) (Finset.sum_congr rfl fun k _ => congrArg₂ (· * ·) ?_ ?_) (Finset.sum_congr rfl fun k _ => congrArg₂ (· * ·) ?_ ?_)) ?_)
  · show V c main_v139 (((cfg7.win 0).blk t).view.emb (ix2 ⟨(j 0).val, hj0⟩ k)) = V c main_v139 _
    refine congrArg _ (funext fun a => Fin.ext ?_)
    match a with
    | ⟨0, _⟩ => show win7_0.index t (0 : Fin 2) * 5000 + 1 * (j 0).val = win7_5.index t (0 : Fin 2) * 5000 + 1 * (j 0).val; omega
    | ⟨1, _⟩ => show win7_0.index t (1 : Fin 2) * 128 + 1 * k.val = k.val; omega
  · show V c main_v144 (((cfg7.win 2).blk t).view.emb (ix2 k ⟨(j 1).val, hj1⟩)) = V c main_v144 _
    refine congrArg _ (funext fun a => Fin.ext ?_)
    match a with
    | ⟨0, _⟩ => show win7_2.index t (0 : Fin 2) * 128 + 1 * k.val = k.val; omega
    | ⟨1, _⟩ => show win7_2.index t (1 : Fin 2) * 128 + 1 * (j 1).val = win7_5.index t (1 : Fin 2) * 128 + 1 * (j 1).val; omega
  · show V c main_v129 (((cfg7.win 1).blk t).view.emb (ix2 ⟨(j 0).val, hj0⟩ k)) = V c main_v129 _
    refine congrArg _ (funext fun a => Fin.ext ?_)
    match a with
    | ⟨0, _⟩ => show win7_1.index t (0 : Fin 2) * 5000 + 1 * (j 0).val = win7_5.index t (0 : Fin 2) * 5000 + 1 * (j 0).val; omega
    | ⟨1, _⟩ => show win7_1.index t (1 : Fin 2) * 128 + 1 * k.val = k.val; omega
  · show V c main_v146 (((cfg7.win 3).blk t).view.emb (ix2 k ⟨(j 1).val, hj1⟩)) = V c main_v146 _
    refine congrArg _ (funext fun a => Fin.ext ?_)
    match a with
    | ⟨0, _⟩ => show win7_3.index t (0 : Fin 2) * 128 + 1 * k.val = k.val; omega
    | ⟨1, _⟩ => show win7_3.index t (1 : Fin 2) * 128 + 1 * (j 1).val = win7_5.index t (1 : Fin 2) * 128 + 1 * (j 1).val; omega
  · show V c main_v142 (((cfg7.win 4).blk t).view.emb (ix2 0 ⟨(j 1).val, hj1⟩)) = V c main_v142 _
    refine congrArg _ (funext fun a => Fin.ext ?_)
    match a with
    | ⟨0, _⟩ => show win7_4.index t (0 : Fin 2) * 1 + 1 * 0 = 0; omega
    | ⟨1, _⟩ => show win7_4.index t (1 : Fin 2) * 128 + 1 * (j 1).val = win7_5.index t (1 : Fin 2) * 128 + 1 * (j 1).val; omega

/-- An index of the output array is in point `t`'s block iff each coordinate is in the block's range. -/
theorem mem_blk (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v147).slice (win7_5.rect t)).set ↔ _
  rw [View.set_slice_whole, Rect.mem_set_unit]
  exact Iff.rfl

/-- The ten row blocks cover the array: row `r` lies in block `r / 5000`. -/
theorem cover (i : S50000x128.Idx) : ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ := idx_onto ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- The output array after the region. -/
theorem final (c : Dev nD) : (dat7 V c).arrAt 5 cfg7.N = G V c :=
  (dat7 V c).arrAt_eq_of_cover 5 (G V c) (fun t _ => flushed_eq V c t) cover

end Cert.KernelIdeal.Layer7

end
-- ==== Proof.Entry7.lean ====
/-
  Graph-convolution layer 8 of the idealized kernel, from the contents of @main's buffers before its stretch of host
  operations to the contents after its grid region: the stretch computes the neighbourhood sum of the current node features
  and slices out the layer's weights and bias; the region then stores `(A h · W_rel + h · W_root) + b`.
-/
import proofs.«108526_j48593259987025_1_alg».proof.Proof.HostFns
import proofs.«108526_j48593259987025_1_alg».proof.Proof.Layer7
import proofs.«108526_j48593259987025_1_alg».proof.Proof.KeepA
import proofs.«108526_j48593259987025_1_alg».proof.Proof.KeepB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the neighbourhood sum of the current features in its first input array. -/
theorem entry7_agg (c : Dev nD) : V15 m ρ c main_v139 = aggK (m ((c : Thread nD τ).loc main_arg1)) (W14 m ρ c (Proc.devRef .tc main_v129)) := by
  show StableHlo.after hostOps7 (W14 m ρ c) (Proc.devRef .tc main_v139) = _
  after_results
  rw [keep14_main_v1 m ρ c, keep14_main_v3 m ρ c]
  rfl

/-- The current features are not touched by the stretch. -/
theorem entry7_h (c : Dev nD) : V15 m ρ c main_v129 = (W14 m ρ c (Proc.devRef .tc main_v129)) := by
  show StableHlo.after hostOps7 (W14 m ρ c) (Proc.devRef .tc main_v129) = _
  host_skip

set_option maxHeartbeats 4000000 in
/-- The layer's first weight matrix. -/
theorem entry7_wr (c : Dev nD) : V15 m ρ c main_v144 = wmat (m ((c : Thread nD τ).loc main_arg3)) (7 : Fin 8) := by
  show StableHlo.after hostOps7 (W14 m ρ c) (Proc.devRef .tc main_v144) = _
  after_results
  rw [keep14_main_arg3 m ρ c]
  exact slice_mat (m ((c : Thread nD τ).loc main_arg3)) 7 (by decide) slices_S8x128x128_S1x128x128_7_0_0

set_option maxHeartbeats 4000000 in
/-- The layer's second weight matrix. -/
theorem entry7_ws (c : Dev nD) : V15 m ρ c main_v146 = wmat (m ((c : Thread nD τ).loc main_arg4)) (7 : Fin 8) := by
  show StableHlo.after hostOps7 (W14 m ρ c) (Proc.devRef .tc main_v146) = _
  after_results
  rw [keep14_main_arg4 m ρ c]
  exact slice_mat (m ((c : Thread nD τ).loc main_arg4)) 7 (by decide) slices_S8x128x128_S1x128x128_7_0_0

set_option maxHeartbeats 4000000 in
/-- The layer's bias, read in the one row of the bias array. -/
theorem entry7_b (c : Dev nD) : (fun q : Fin 128 => V15 m ρ c main_v142 (ix2 0 q)) = bvec (m ((c : Thread nD τ).loc main_arg5)) (7 : Fin 8) := by
  have e : V15 m ρ c main_v142 = shapeCast S1x128 (shapeCast S128 (extractStridedSlice S1x128 ![7, 0] (m ((c : Thread nD τ).loc main_arg5)) slices_S8x128_S1x128_7_0) shapeCasts_S1x128_S128) shapeCasts_S128_S1x128 := by
    show StableHlo.after hostOps7 (W14 m ρ c) (Proc.devRef .tc main_v142) = _
    after_results
    rw [keep14_main_arg5 m ρ c]
    rfl
  funext q
  rw [e]
  exact slice_row (m ((c : Thread nD τ).loc main_arg5)) 7 (by decide) slices_S8x128_S1x128_7_0 q

/-- The layer's output array after its region. -/
theorem out7 (c : Dev nD) : W16 m ρ c (Proc.devRef .tc main_v147)
    = GraphConv.last (aggK (m ((c : Thread nD τ).loc main_arg1))) (W14 m ρ c (Proc.devRef .tc main_v129)) (wmat (m ((c : Thread nD τ).loc main_arg3)) (7 : Fin 8)) (wmat (m ((c : Thread nD τ).loc main_arg4)) (7 : Fin 8)) (bvec (m ((c : Thread nD τ).loc main_arg5)) (7 : Fin 8)) := by
  refine (W16_arr m ρ c 5).trans ?_
  rw [Layer7.final]
  unfold Layer7.G GraphConv.last
  rw [entry7_agg m ρ c, entry7_h m ρ c, entry7_wr m ρ c, entry7_ws m ρ c, entry7_b m ρ c]

end Cert.KernelIdeal.Host

end
-- ==== Proof.Layer8.lean ====
/-
  The last grid region of the idealized kernel: the final affine map. Its grid has one point, which stages the whole pooled
  128 × 128 matrix, the whole 128 × 10 weight matrix and the bias row, and writes the whole 128 × 10 result:
  `Σ_k pooled (r, k) · W_lin (k, c) + b_lin (0, c)` at row `r`, column `c` (over the extended reals a narrowing of the float
  format is the identity and a matrix product into a zero accumulator is the plain sum).
-/
import proofs.«108526_j48593259987025_1_alg».proof.Proof.Gen.KernelIdeal.Frame
import proofs.«108526_j48593259987025_1_alg».proof.Proof.Spec
import proofs.«108526_j48593259987025_1_alg».proof.Proof.LibPlainDot
import Idealize.ShloMosaic.Lib.Pipeline.Value

set_option maxRecDepth 16384

noncomputable section

namespace Cert.KernelIdeal.Layer8

open Cert.KernelIdeal Cert.KernelIdeal.Gen Idealize.ShloMosaic Idealize.ShloMosaic.TcCoe Idealize.ShloMosaic.ValueIdx Idealize.SL.Sem
open Idealize.ShloMosaic.Pipeline (Dat Cfg Window)

/-- The bias row broadcast over the rows, at `(r, c)`: the row's entry in column `c`. -/
theorem bias_apply (x2 : Vec Ideal S1x10 .f32) (r : Fin 128) (c : Fin 10) :
    broadcastTo S128x10 x2 broadcasts_S1x10_S128x10 (ix2 r c) = x2 (ix2 0 c) :=
  broadcastTo_apply x2 broadcasts_S1x10_S128x10 (ix2 r c) (ix2 0 c) (fun a => match a with
    | ⟨0, _⟩ => by show (0 : Nat) = if (1 : Nat) = 1 then 0 else _; rw [if_pos rfl]
    | ⟨1, _⟩ => by show c.val = if (10 : Nat) = 1 then 0 else c.val; rw [if_neg (by decide)])

/-- The body's stored value at row `r`, column `c`. -/
theorem pay_apply (x0 : Vec Ideal S128x128 .f32) (x1 : Vec Ideal S128x10 .f32) (x2 : Vec Ideal S1x10 .f32) (r : Fin 128) (c : Fin 10) :
    k8_pay1 (F := Ideal) x0 x1 x2 (ix2 r c) = GraphConv.mm x0 x1 r c + x2 (ix2 0 c) := by
  unfold k8_pay1
  simp only [shapeCast_self]
  rw [show dot_S128x128_S128x10_S128x10_1_0_0_1_n_n = DotDims.plain 128 128 10 from rfl]
  show _ + broadcastTo S128x10 x2 broadcasts_S1x10_S128x10 (ix2 r c) = _
  rw [bias_apply]
  have e1 := PlainDot.matmul_apply_ix2 (M := 128) (K := 128) (N := 10) none (truncf .bf16 x0 bitsLt_bf16_f32) (truncf .bf16 x1 bitsLt_bf16_f32) r c
  exact congrArg₂ (· + ·) e1 rfl

/-- The same at any index. -/
theorem pay_at (x0 : Vec Ideal S128x128 .f32) (x1 : Vec Ideal S128x10 .f32) (x2 : Vec Ideal S1x10 .f32) (j : S128x10.Idx) :
    k8_pay1 (F := Ideal) x0 x1 x2 j
      = GraphConv.mm x0 x1 ⟨(j 0).val, idx2_lt0 j⟩ ⟨(j 1).val, idx2_lt1 j⟩ + x2 (ix2 0 ⟨(j 1).val, idx2_lt1 j⟩) := by
  have h := pay_apply x0 x1 x2 ⟨(j 0).val, idx2_lt0 j⟩ ⟨(j 1).val, idx2_lt1 j⟩
  rwa [show ix2 (⟨(j 0).val, idx2_lt0 j⟩ : Fin 128) (⟨(j 1).val, idx2_lt1 j⟩ : Fin 10) = j from (eq_ix2 j).symm] at h

theorem hz : (![0, 0] : Fin 2 → Nat) = fun _ => 0 := funext fun a => by fin_cases a <;> rfl

/-- Every window stays at block zero at the one grid point. -/
theorem idx_facts : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

variable (V : (c : Dev nD) → (b : Ref sig .tc) → Buf (Elt Ideal) ((c : Thread nD τ).loc b))

/-- What the region's output array ends holding, from the arrays the region finds. -/
def G (c : Dev nD) : GraphConv.Mat 128 10 :=
  GraphConv.lin (V c main_v159) (V c main_arg6) (fun q => V c main_v160 (ix2 0 q))

/-- What the one point writes back is the whole of that function. -/
theorem flushed_eq (c : Dev nD) (t : Fin cfg8.N) :
    (dat8 V c).flushed 3 t = ((cfg8.win 3).blk t).view.read (Elt Ideal) (G V c) := by
  show (cfg8.win 3).cut (grid8.coords t) ((dat8 V c).after 3 t) = _
  rw [after8_3]
  unfold out8_3
  rw [View.canon_unit_zero hz]
  simp only [View.ld_unit_zero (S := S128x128) hz, View.ld_unit_zero (S := S128x10) hz, View.ld_unit_zero (S := S1x10) hz]
  obtain ⟨e00, e01, e10, e11, e20, e21, e30, e31⟩ := idx_facts t
  funext j
  refine (pay_at _ _ _ j).trans ?_
  show _ = G V c (((cfg8.win 3).blk t).view.emb j)
  unfold G GraphConv.lin GraphConv.mm
  have hj0 : (j 0).val < 128 := (j 0).isLt
  have hj1 : (j 1).val < 10 := (j 1).isLt
  refine congrArg₂ (· + ·) (Finset.sum_congr rfl fun k _ => congrArg₂ (· * ·) ?_ ?_) ?_
  · show V c main_v159 (((cfg8.win 0).blk t).view.emb (ix2 ⟨(j 0).val, hj0⟩ k)) = V c main_v159 _
    refine congrArg _ (funext fun a => Fin.ext ?_)
    match a with
    | ⟨0, _⟩ => show win8_0.index t (0 : Fin 2) * 128 + 1 * (j 0).val = win8_3.index t (0 : Fin 2) * 128 + 1 * (j 0).val; omega
    | ⟨1, _⟩ => show win8_0.index t (1 : Fin 2) * 128 + 1 * k.val = k.val; omega
  · show V c main_arg6 (((cfg8.win 1).blk t).view.emb (ix2 k ⟨(j 1).val, hj1⟩)) = V c main_arg6 _
    refine congrArg _ (funext fun a => Fin.ext ?_)
    match a with
    | ⟨0, _⟩ => show win8_1.index t (0 : Fin 2) * 128 + 1 * k.val = k.val; omega
    | ⟨1, _⟩ => show win8_1.index t (1 : Fin 2) * 10 + 1 * (j 1).val = win8_3.index t (1 : Fin 2) * 10 + 1 * (j 1).val; omega
  · show V c main_v160 (((cfg8.win 2).blk t).view.emb (ix2 0 ⟨(j 1).val, hj1⟩)) = V c main_v160 _
    refine congrArg _ (funext fun a => Fin.ext ?_)
    match a with
    | ⟨0, _⟩ => show win8_2.index t (0 : Fin 2) * 1 + 1 * 0 = 0; omega
    | ⟨1, _⟩ => show win8_2.index t (1 : Fin 2) * 10 + 1 * (j 1).val = win8_3.index t (1 : Fin 2) * 10 + 1 * (j 1).val; omega

/-- An index of the output array is in the point's block iff each coordinate is in the block's range. -/
theorem mem_blk (t : Fin cfg8.N) (i : S128x10.Idx) :
    i ∈ ((cfg8.win 3).blk t).view.set ↔ ∀ a : Fin 2, win8_3.index t a * S128x10.size a ≤ (i a).val ∧ (i a).val < win8_3.index t a * S128x10.size a + S128x10.size a := by
  show i ∈ ((View.whole main_v161).slice (win8_3.rect t)).set ↔ _
  rw [View.set_slice_whole, Rect.mem_set_unit]
  exact Iff.rfl

/-- The one block is the whole array. -/
theorem cover (i : S128x10.Idx) : ∃ t : Fin cfg8.N, (cfg8.win 3).flush t = true ∧ i ∈ ((cfg8.win 3).blk t).view.set := by
  have hi0 : (i 0).val < 128 := (i 0).isLt
  have hi1 : (i 1).val < 10 := (i 1).isLt
  have t : Fin cfg8.N := ⟨0, by decide⟩
  obtain ⟨e00, e01, e10, e11, e20, e21, e30, e31⟩ := idx_facts t
  refine ⟨t, flush8_3 t, ?_⟩
  rw [mem_blk]
  intro a
  match a with
  | ⟨0, _⟩ => show win8_3.index t (0 : Fin 2) * 128 ≤ (i 0).val ∧ (i 0).val < win8_3.index t (0 : Fin 2) * 128 + 128; omega
  | ⟨1, _⟩ => show win8_3.index t (1 : Fin 2) * 10 ≤ (i 1).val ∧ (i 1).val < win8_3.index t (1 : Fin 2) * 10 + 10; omega

/-- The output array after the region. -/
theorem final (c : Dev nD) : (dat8 V c).arrAt 3 cfg8.N = G V c :=
  (dat8 V c).arrAt_eq_of_cover 3 (G V c) (fun t _ => flushed_eq V c t) cover

end Cert.KernelIdeal.Layer8

end
-- ==== Proof.KeepC.lean ====
/-
  The graph assignment, the final weight matrix and the final bias are argument arrays: no host operation and no grid region writes them, so when the last layer has run they hold what they were launched with.
-/
import proofs.«108526_j48593259987025_1_alg».proof.Proof.HostFns
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem step2_main_arg2 (c : Dev nD) : W2 m ρ c (Proc.devRef .tc main_arg2) = W0 m ρ c (Proc.devRef .tc main_arg2) :=
  (W2_of_ne m ρ c main_arg2 (by decide)).trans (by host_skip)

theorem step4_main_arg2 (c : Dev nD) : W4 m ρ c (Proc.devRef .tc main_arg2) = W2 m ρ c (Proc.devRef .tc main_arg2) :=
  (W4_of_ne m ρ c main_arg2 (by decide)).trans (by host_skip)

theorem step6_main_arg2 (c : Dev nD) : W6 m ρ c (Proc.devRef .tc main_arg2) = W4 m ρ c (Proc.devRef .tc main_arg2) :=
  (W6_of_ne m ρ c main_arg2 (by decide)).trans (by host_skip)

theorem step8_main_arg2 (c : Dev nD) : W8 m ρ c (Proc.devRef .tc main_arg2) = W6 m ρ c (Proc.devRef .tc main_arg2) :=
  (W8_of_ne m ρ c main_arg2 (by decide)).trans (by host_skip)

theorem step10_main_arg2 (c : Dev nD) : W10 m ρ c (Proc.devRef .tc main_arg2) = W8 m ρ c (Proc.devRef .tc main_arg2) :=
  (W10_of_ne m ρ c main_arg2 (by decide)).trans (by host_skip)

theorem step12_main_arg2 (c : Dev nD) : W12 m ρ c (Proc.devRef .tc main_arg2) = W10 m ρ c (Proc.devRef .tc main_arg2) :=
  (W12_of_ne m ρ c main_arg2 (by decide)).trans (by host_skip)

theorem step14_main_arg2 (c : Dev nD) : W14 m ρ c (Proc.devRef .tc main_arg2) = W12 m ρ c (Proc.devRef .tc main_arg2) :=
  (W14_of_ne m ρ c main_arg2 (by decide)).trans (by host_skip)

theorem step16_main_arg2 (c : Dev nD) : W16 m ρ c (Proc.devRef .tc main_arg2) = W14 m ρ c (Proc.devRef .tc main_arg2) :=
  (W16_of_ne m ρ c main_arg2 (by decide)).trans (by host_skip)

theorem step2_main_arg6 (c : Dev nD) : W2 m ρ c (Proc.devRef .tc main_arg6) = W0 m ρ c (Proc.devRef .tc main_arg6) :=
  (W2_of_ne m ρ c main_arg6 (by decide)).trans (by host_skip)

theorem step4_main_arg6 (c : Dev nD) : W4 m ρ c (Proc.devRef .tc main_arg6) = W2 m ρ c (Proc.devRef .tc main_arg6) :=
  (W4_of_ne m ρ c main_arg6 (by decide)).trans (by host_skip)

theorem step6_main_arg6 (c : Dev nD) : W6 m ρ c (Proc.devRef .tc main_arg6) = W4 m ρ c (Proc.devRef .tc main_arg6) :=
  (W6_of_ne m ρ c main_arg6 (by decide)).trans (by host_skip)

theorem step8_main_arg6 (c : Dev nD) : W8 m ρ c (Proc.devRef .tc main_arg6) = W6 m ρ c (Proc.devRef .tc main_arg6) :=
  (W8_of_ne m ρ c main_arg6 (by decide)).trans (by host_skip)

theorem step10_main_arg6 (c : Dev nD) : W10 m ρ c (Proc.devRef .tc main_arg6) = W8 m ρ c (Proc.devRef .tc main_arg6) :=
  (W10_of_ne m ρ c main_arg6 (by decide)).trans (by host_skip)

theorem step12_main_arg6 (c : Dev nD) : W12 m ρ c (Proc.devRef .tc main_arg6) = W10 m ρ c (Proc.devRef .tc main_arg6) :=
  (W12_of_ne m ρ c main_arg6 (by decide)).trans (by host_skip)

theorem step14_main_arg6 (c : Dev nD) : W14 m ρ c (Proc.devRef .tc main_arg6) = W12 m ρ c (Proc.devRef .tc main_arg6) :=
  (W14_of_ne m ρ c main_arg6 (by decide)).trans (by host_skip)

theorem step16_main_arg6 (c : Dev nD) : W16 m ρ c (Proc.devRef .tc main_arg6) = W14 m ρ c (Proc.devRef .tc main_arg6) :=
  (W16_of_ne m ρ c main_arg6 (by decide)).trans (by host_skip)

theorem step2_main_arg7 (c : Dev nD) : W2 m ρ c (Proc.devRef .tc main_arg7) = W0 m ρ c (Proc.devRef .tc main_arg7) :=
  (W2_of_ne m ρ c main_arg7 (by decide)).trans (by host_skip)

theorem step4_main_arg7 (c : Dev nD) : W4 m ρ c (Proc.devRef .tc main_arg7) = W2 m ρ c (Proc.devRef .tc main_arg7) :=
  (W4_of_ne m ρ c main_arg7 (by decide)).trans (by host_skip)

theorem step6_main_arg7 (c : Dev nD) : W6 m ρ c (Proc.devRef .tc main_arg7) = W4 m ρ c (Proc.devRef .tc main_arg7) :=
  (W6_of_ne m ρ c main_arg7 (by decide)).trans (by host_skip)

theorem step8_main_arg7 (c : Dev nD) : W8 m ρ c (Proc.devRef .tc main_arg7) = W6 m ρ c (Proc.devRef .tc main_arg7) :=
  (W8_of_ne m ρ c main_arg7 (by decide)).trans (by host_skip)

theorem step10_main_arg7 (c : Dev nD) : W10 m ρ c (Proc.devRef .tc main_arg7) = W8 m ρ c (Proc.devRef .tc main_arg7) :=
  (W10_of_ne m ρ c main_arg7 (by decide)).trans (by host_skip)

theorem step12_main_arg7 (c : Dev nD) : W12 m ρ c (Proc.devRef .tc main_arg7) = W10 m ρ c (Proc.devRef .tc main_arg7) :=
  (W12_of_ne m ρ c main_arg7 (by decide)).trans (by host_skip)

theorem step14_main_arg7 (c : Dev nD) : W14 m ρ c (Proc.devRef .tc main_arg7) = W12 m ρ c (Proc.devRef .tc main_arg7) :=
  (W14_of_ne m ρ c main_arg7 (by decide)).trans (by host_skip)

theorem step16_main_arg7 (c : Dev nD) : W16 m ρ c (Proc.devRef .tc main_arg7) = W14 m ρ c (Proc.devRef .tc main_arg7) :=
  (W16_of_ne m ρ c main_arg7 (by decide)).trans (by host_skip)

theorem keep2_main_arg2 (c : Dev nD) : W2 m ρ c (Proc.devRef .tc main_arg2) = m ((c : Thread nD τ).loc main_arg2) :=
  (step2_main_arg2 m ρ c).trans (rfl)

theorem keep4_main_arg2 (c : Dev nD) : W4 m ρ c (Proc.devRef .tc main_arg2) = m ((c : Thread nD τ).loc main_arg2) :=
  (step4_main_arg2 m ρ c).trans (keep2_main_arg2 m ρ c)

theorem keep6_main_arg2 (c : Dev nD) : W6 m ρ c (Proc.devRef .tc main_arg2) = m ((c : Thread nD τ).loc main_arg2) :=
  (step6_main_arg2 m ρ c).trans (keep4_main_arg2 m ρ c)

theorem keep8_main_arg2 (c : Dev nD) : W8 m ρ c (Proc.devRef .tc main_arg2) = m ((c : Thread nD τ).loc main_arg2) :=
  (step8_main_arg2 m ρ c).trans (keep6_main_arg2 m ρ c)

theorem keep10_main_arg2 (c : Dev nD) : W10 m ρ c (Proc.devRef .tc main_arg2) = m ((c : Thread nD τ).loc main_arg2) :=
  (step10_main_arg2 m ρ c).trans (keep8_main_arg2 m ρ c)

theorem keep12_main_arg2 (c : Dev nD) : W12 m ρ c (Proc.devRef .tc main_arg2) = m ((c : Thread nD τ).loc main_arg2) :=
  (step12_main_arg2 m ρ c).trans (keep10_main_arg2 m ρ c)

theorem keep14_main_arg2 (c : Dev nD) : W14 m ρ c (Proc.devRef .tc main_arg2) = m ((c : Thread nD τ).loc main_arg2) :=
  (step14_main_arg2 m ρ c).trans (keep12_main_arg2 m ρ c)

theorem keep16_main_arg2 (c : Dev nD) : W16 m ρ c (Proc.devRef .tc main_arg2) = m ((c : Thread nD τ).loc main_arg2) :=
  (step16_main_arg2 m ρ c).trans (keep14_main_arg2 m ρ c)

theorem keep2_main_arg6 (c : Dev nD) : W2 m ρ c (Proc.devRef .tc main_arg6) = m ((c : Thread nD τ).loc main_arg6) :=
  (step2_main_arg6 m ρ c).trans (rfl)

theorem keep4_main_arg6 (c : Dev nD) : W4 m ρ c (Proc.devRef .tc main_arg6) = m ((c : Thread nD τ).loc main_arg6) :=
  (step4_main_arg6 m ρ c).trans (keep2_main_arg6 m ρ c)

theorem keep6_main_arg6 (c : Dev nD) : W6 m ρ c (Proc.devRef .tc main_arg6) = m ((c : Thread nD τ).loc main_arg6) :=
  (step6_main_arg6 m ρ c).trans (keep4_main_arg6 m ρ c)

theorem keep8_main_arg6 (c : Dev nD) : W8 m ρ c (Proc.devRef .tc main_arg6) = m ((c : Thread nD τ).loc main_arg6) :=
  (step8_main_arg6 m ρ c).trans (keep6_main_arg6 m ρ c)

theorem keep10_main_arg6 (c : Dev nD) : W10 m ρ c (Proc.devRef .tc main_arg6) = m ((c : Thread nD τ).loc main_arg6) :=
  (step10_main_arg6 m ρ c).trans (keep8_main_arg6 m ρ c)

theorem keep12_main_arg6 (c : Dev nD) : W12 m ρ c (Proc.devRef .tc main_arg6) = m ((c : Thread nD τ).loc main_arg6) :=
  (step12_main_arg6 m ρ c).trans (keep10_main_arg6 m ρ c)

theorem keep14_main_arg6 (c : Dev nD) : W14 m ρ c (Proc.devRef .tc main_arg6) = m ((c : Thread nD τ).loc main_arg6) :=
  (step14_main_arg6 m ρ c).trans (keep12_main_arg6 m ρ c)

theorem keep16_main_arg6 (c : Dev nD) : W16 m ρ c (Proc.devRef .tc main_arg6) = m ((c : Thread nD τ).loc main_arg6) :=
  (step16_main_arg6 m ρ c).trans (keep14_main_arg6 m ρ c)

theorem keep2_main_arg7 (c : Dev nD) : W2 m ρ c (Proc.devRef .tc main_arg7) = m ((c : Thread nD τ).loc main_arg7) :=
  (step2_main_arg7 m ρ c).trans (rfl)

theorem keep4_main_arg7 (c : Dev nD) : W4 m ρ c (Proc.devRef .tc main_arg7) = m ((c : Thread nD τ).loc main_arg7) :=
  (step4_main_arg7 m ρ c).trans (keep2_main_arg7 m ρ c)

theorem keep6_main_arg7 (c : Dev nD) : W6 m ρ c (Proc.devRef .tc main_arg7) = m ((c : Thread nD τ).loc main_arg7) :=
  (step6_main_arg7 m ρ c).trans (keep4_main_arg7 m ρ c)

theorem keep8_main_arg7 (c : Dev nD) : W8 m ρ c (Proc.devRef .tc main_arg7) = m ((c : Thread nD τ).loc main_arg7) :=
  (step8_main_arg7 m ρ c).trans (keep6_main_arg7 m ρ c)

theorem keep10_main_arg7 (c : Dev nD) : W10 m ρ c (Proc.devRef .tc main_arg7) = m ((c : Thread nD τ).loc main_arg7) :=
  (step10_main_arg7 m ρ c).trans (keep8_main_arg7 m ρ c)

theorem keep12_main_arg7 (c : Dev nD) : W12 m ρ c (Proc.devRef .tc main_arg7) = m ((c : Thread nD τ).loc main_arg7) :=
  (step12_main_arg7 m ρ c).trans (keep10_main_arg7 m ρ c)

theorem keep14_main_arg7 (c : Dev nD) : W14 m ρ c (Proc.devRef .tc main_arg7) = m ((c : Thread nD τ).loc main_arg7) :=
  (step14_main_arg7 m ρ c).trans (keep12_main_arg7 m ρ c)

theorem keep16_main_arg7 (c : Dev nD) : W16 m ρ c (Proc.devRef .tc main_arg7) = m ((c : Thread nD τ).loc main_arg7) :=
  (step16_main_arg7 m ρ c).trans (keep14_main_arg7 m ρ c)

end Cert.KernelIdeal.Host

end
-- ==== Proof.Entry8.lean ====
/-
  The end of the idealized kernel's @main: the last stretch of host operations pools the last layer's features per graph and
  re-lays the final bias as a row; the last grid region stores `pooled · W_lin + b_lin`.
-/
import proofs.«108526_j48593259987025_1_alg».proof.Proof.HostFns
import proofs.«108526_j48593259987025_1_alg».proof.Proof.Layer8
import proofs.«108526_j48593259987025_1_alg».proof.Proof.KeepC
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The region finds the pooled features in its first input array. -/
theorem entry8_pool (c : Dev nD) : V17 m ρ c main_v159 = poolK (m ((c : Thread nD τ).loc main_arg2)) (W16 m ρ c (Proc.devRef .tc main_v147)) := by
  show StableHlo.after hostOps8 (W16 m ρ c) (Proc.devRef .tc main_v159) = _
  after_results
  rw [keep16_main_arg2 m ρ c]
  rfl

/-- The final weight matrix is an argument array, as launched. -/
theorem entry8_w (c : Dev nD) : V17 m ρ c main_arg6 = (m ((c : Thread nD τ).loc main_arg6)) := by
  refine Eq.trans ?_ (keep16_main_arg6 m ρ c)
  show StableHlo.after hostOps8 (W16 m ρ c) (Proc.devRef .tc main_arg6) = _
  host_skip

set_option maxHeartbeats 4000000 in
/-- The final bias, read in the one row of the bias array. -/
theorem entry8_b (c : Dev nD) : (fun q : Fin 10 => V17 m ρ c main_v160 (ix2 0 q)) = blin (m ((c : Thread nD τ).loc main_arg7)) := by
  have e : V17 m ρ c main_v160 = shapeCast S1x10 (m ((c : Thread nD τ).loc main_arg7)) shapeCasts_S10_S1x10 := by
    show StableHlo.after hostOps8 (W16 m ρ c) (Proc.devRef .tc main_v160) = _
    after_results
    rw [keep16_main_arg7 m ρ c]
    rfl
  funext q
  rw [e]
  exact row_blin (m ((c : Thread nD τ).loc main_arg7)) q

/-- The result array after the last region. -/
theorem out8 (c : Dev nD) : W18 m ρ c (Proc.devRef .tc main_v161)
    = GraphConv.lin (poolK (m ((c : Thread nD τ).loc main_arg2)) (W16 m ρ c (Proc.devRef .tc main_v147))) (m ((c : Thread nD τ).loc main_arg6)) (blin (m ((c : Thread nD τ).loc main_arg7))) := by
  refine (W18_arr m ρ c 3).trans ?_
  rw [Layer8.final]
  unfold Layer8.G
  rw [entry8_pool m ρ c, entry8_w m ρ c, entry8_b m ρ c]

end Cert.KernelIdeal.Host

end
-- ==== Proof.Chain.lean ====
/-
  The idealized kernel's result as one function of the argument arrays: the nine stretches of host operations and nine grid
  regions of @main compose to the graph-convolution network of the specification, with the kernel's own aggregation and
  pooling as its two parameters.
-/
import proofs.«108526_j48593259987025_1_alg».proof.Proof.Entry0
import proofs.«108526_j48593259987025_1_alg».proof.Proof.Entry1
import proofs.«108526_j48593259987025_1_alg».proof.Proof.Entry2
import proofs.«108526_j48593259987025_1_alg».proof.Proof.Entry3
import proofs.«108526_j48593259987025_1_alg».proof.Proof.Entry4
import proofs.«108526_j48593259987025_1_alg».proof.Proof.Entry5
import proofs.«108526_j48593259987025_1_alg».proof.Proof.Entry6
import proofs.«108526_j48593259987025_1_alg».proof.Proof.Entry7
import proofs.«108526_j48593259987025_1_alg».proof.Proof.Entry8
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- What the last boundary's contents hold at the result buffer. -/
theorem result (c : Dev nD) : V18 m ρ c main_v161
    = GraphConv.model (aggK (m ((c : Thread nD τ).loc main_arg1))) (poolK (m ((c : Thread nD τ).loc main_arg2))) (m ((c : Thread nD τ).loc main_arg0)) (wmat (m ((c : Thread nD τ).loc main_arg3))) (wmat (m ((c : Thread nD τ).loc main_arg4))) (bvec (m ((c : Thread nD τ).loc main_arg5))) (m ((c : Thread nD τ).loc main_arg6)) (blin (m ((c : Thread nD τ).loc main_arg7))) := by
  show W18 m ρ c (Proc.devRef .tc main_v161) = _
  rw [out8 m ρ c, out7 m ρ c, out6 m ρ c, out5 m ρ c, out4 m ρ c, out3 m ρ c, out2 m ρ c, out1 m ρ c, out0 m ρ c]
  rfl

end Cert.KernelIdeal.Host

end
-- ==== Proof.RefLayer.lean ====
/-
  One layer of the reference network, and its last affine map, as closed terms of the host operations, read against the
  common specification. The reference adds the bias between the two products, `(agg · W_rel + b) + h · W_root`; the
  specification adds it last. The two groupings agree on the extended reals (`add_right_comm`), with no finiteness
  assumption. The products are plain matrix products (the sum over the shared coordinate), the bias is broadcast along the
  rows, and the clamp is the entrywise maximum with the float zero.
-/
import proofs.«108526_j48593259987025_1_alg».proof.Proof.Gen.ReferenceIdeal
import proofs.«108526_j48593259987025_1_alg».proof.Proof.Spec
import proofs.«108526_j48593259987025_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Model

open Cert.ReferenceIdeal Cert.ReferenceIdeal.Gen Idealize.ShloMosaic Idealize.ShloMosaic.ValueIdx Idealize.SL.Sem
  Idealize.ShloMosaic.StableHlo

/-- A float array of the given shape over the extended reals. -/
abbrev T (s : Shape) : Type := FVec Ideal s .f32

/-- An integer array of the given shape. -/
abbrev TI (s : Shape) : Type := IVec s 32

/-- The array of float zeros the clamp compares with. -/
def zerosT : T S50000x128 := broadcastInDim S50000x128 ![] bcast_S_S50000x128 (constant (F := Ideal) S_ .f32 0x00000000#32)

/-- The bias vector broadcast along the rows. -/
def biasT (b : T S128) : T S50000x128 :=
  broadcastInDim S50000x128 ![0, 1] bcast_S1x128_S50000x128_0_1 (broadcastInDim S1x128 ![1] bcast_S128_S1x128_1 b)

/-- One layer before the clamp, as the reference groups it: `(agg · wr + b) + h · ws`. -/
def layerT (agg h : T S50000x128) (wr ws : T S128x128) (b : T S128) : T S50000x128 :=
  addf (F := Ideal) (φ := .f32) (addf (F := Ideal) (φ := .f32) (Host.dotGeneral (F := Ideal) (φ₁ := .f32) (φ₂ := .f32) dot_S50000x128_S128x128_S50000x128_1_0_0_1_n_n none agg wr) (biasT b))
    (Host.dotGeneral (F := Ideal) (φ₁ := .f32) (φ₂ := .f32) dot_S50000x128_S128x128_S50000x128_1_0_0_1_n_n none h ws)

/-- The clamp below at zero. -/
def reluT (a : T S50000x128) : T S50000x128 := maximumf (F := Ideal) (φ := .f32) a zerosT

/-- The last bias vector broadcast along the rows. -/
def blinT (b : T S10) : T S128x10 :=
  broadcastInDim S128x10 ![0, 1] bcast_S1x10_S128x10_0_1 (broadcastInDim S1x10 ![1] bcast_S10_S1x10_1 b)

/-- The last affine map as the reference writes it: `p · w + b`. -/
def linT (p : T S128x128) (w : T S128x10) (b : T S10) : T S128x10 :=
  addf (F := Ideal) (φ := .f32) (Host.dotGeneral (F := Ideal) (φ₁ := .f32) (φ₂ := .f32) dot_S128x128_S128x10_S128x10_1_0_0_1_n_n none p w) (blinT b)

/-- The last bias read at a column. -/
def blinR (x7 : T S10) : Fin 10 → EReal := fun c => x7 (ix1 c)

theorem biasT_apply (b : T S128) (i : S50000x128.Idx) : biasT b i = b (ix1 ⟨(i 1).val, idx2_lt1 i⟩) := by
  unfold biasT
  rw [broadcastInDim_apply _ bcast_S1x128_S50000x128_0_1 _ i (ix2 ⟨0, Nat.one_pos⟩ ⟨(i 1).val, idx2_lt1 i⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 ⟨(i 1).val, idx2_lt1 i⟩) (fun a => match a with
    | ⟨0, _⟩ => by show (i 1).val = if (128 : Nat) = 1 then 0 else (i 1).val; rw [if_neg (by decide)])

theorem blinT_apply (b : T S10) (i : S128x10.Idx) : blinT b i = b (ix1 ⟨(i 1).val, idx2_lt1 i⟩) := by
  unfold blinT
  rw [broadcastInDim_apply _ bcast_S1x10_S128x10_0_1 _ i (ix2 ⟨0, Nat.one_pos⟩ ⟨(i 1).val, idx2_lt1 i⟩) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])]
  exact broadcastInDim_apply _ bcast_S10_S1x10_1 b _ (ix1 ⟨(i 1).val, idx2_lt1 i⟩) (fun a => match a with
    | ⟨0, _⟩ => by show (i 1).val = if (10 : Nat) = 1 then 0 else (i 1).val; rw [if_neg (by decide)])

/-- The host product of a layer at an index: the specification's matrix product. -/
theorem dot_mm (a : T S50000x128) (w : T S128x128) (i : S50000x128.Idx) :
    Host.dotGeneral (F := Ideal) (φ₁ := .f32) (φ₂ := .f32) dot_S50000x128_S128x128_S50000x128_1_0_0_1_n_n none a w i
      = GraphConv.mm a w ⟨(i 0).val, idx2_lt0 i⟩ ⟨(i 1).val, idx2_lt1 i⟩ :=
  PlainDot.dotGeneral_apply (M := 50000) (K := 128) (N := 128) none HostSchedule.single a w i

/-- The last host product at an index. -/
theorem dot_mm_lin (p : T S128x128) (w : T S128x10) (i : S128x10.Idx) :
    Host.dotGeneral (F := Ideal) (φ₁ := .f32) (φ₂ := .f32) dot_S128x128_S128x10_S128x10_1_0_0_1_n_n none p w i
      = GraphConv.mm p w ⟨(i 0).val, idx2_lt0 i⟩ ⟨(i 1).val, idx2_lt1 i⟩ :=
  PlainDot.dotGeneral_apply (M := 128) (K := 128) (N := 10) none HostSchedule.single p w i

/-- The reference's layer is the specification's: the bias moves from the middle to the end. -/
theorem layerT_eq (agg h : T S50000x128) (wr ws : T S128x128) (b : T S128) :
    layerT agg h wr ws b = GraphConv.affine agg h wr ws (fun c => b (ix1 c)) := by
  funext i
  show (Host.dotGeneral (F := Ideal) (φ₁ := .f32) (φ₂ := .f32) dot_S50000x128_S128x128_S50000x128_1_0_0_1_n_n none agg wr i + biasT b i)
      + Host.dotGeneral (F := Ideal) (φ₁ := .f32) (φ₂ := .f32) dot_S50000x128_S128x128_S50000x128_1_0_0_1_n_n none h ws i = _
  rw [dot_mm, dot_mm, biasT_apply]
  exact GraphConv.add_bias_mid _ _ _

/-- The clamp is the specification's. -/
theorem reluT_eq (a : T S50000x128) : reluT a = GraphConv.relu a := by
  funext i
  rfl

/-- The reference's last affine map is the specification's. -/
theorem linT_eq (p : T S128x128) (w : T S128x10) (b : T S10) : linT p w b = GraphConv.lin p w (blinR b) := by
  funext i
  show Host.dotGeneral (F := Ideal) (φ₁ := .f32) (φ₂ := .f32) dot_S128x128_S128x10_S128x10_1_0_0_1_n_n none p w i + blinT b i = _
  rw [dot_mm_lin, blinT_apply]
  rfl

/-- A hidden layer of the reference, given its operands read as the specification reads them. -/
theorem hidden_of (A : GraphConv.Mat 50000 128 → GraphConv.Mat 50000 128) (agg h : T S50000x128) (wr ws : T S128x128)
    (b : T S128) (wr' ws' : GraphConv.Mat 128 128) (b' : Fin 128 → EReal)
    (hA : agg = A h) (hwr : wr = wr') (hws : ws = ws') (hb : ∀ c, b (ix1 c) = b' c) :
    reluT (layerT agg h wr ws b) = GraphConv.hidden A h wr' ws' b' := by
  subst hA hwr hws
  rw [reluT_eq, layerT_eq, (funext hb : (fun c => b (ix1 c)) = b')]
  rfl

/-- The last layer of the reference (no clamp), likewise. -/
theorem last_of (A : GraphConv.Mat 50000 128 → GraphConv.Mat 50000 128) (agg h : T S50000x128) (wr ws : T S128x128)
    (b : T S128) (wr' ws' : GraphConv.Mat 128 128) (b' : Fin 128 → EReal)
    (hA : agg = A h) (hwr : wr = wr') (hws : ws = ws') (hb : ∀ c, b (ix1 c) = b' c) :
    layerT agg h wr ws b = GraphConv.last A h wr' ws' b' := by
  subst hA hwr hws
  rw [layerT_eq, (funext hb : (fun c => b (ix1 c)) = b')]
  rfl

end Cert.ReferenceIdeal.Model

end
-- ==== Proof.RefModel.lean ====
/-
  The reference program, one operation at a time, is the graph-convolution network of the common specification.
  Each of the eight layers is the same closed term of the host operations: the neighbourhood sum (a gather of the rows at the
  edge sources followed by a scatter-add into the edge targets), two matrix products, a bias broadcast along the rows and, for
  the first seven layers, the clamp below at zero. The layer weights are slices of the stacked weight arrays, read here at an
  index. The neighbourhood sum and the per-graph mean pooling are kept as unopened functions of their operand: the
  reference's own terms, with the layer's input in the operand's place.
-/
import proofs.«108526_j48593259987025_1_alg».proof.Proof.RefRead
import proofs.«108526_j48593259987025_1_alg».proof.Proof.RefLayer

noncomputable section

namespace Cert.ReferenceIdeal.Model

open Cert.ReferenceIdeal Cert.ReferenceIdeal.Gen Idealize.ShloMosaic Idealize.ShloMosaic.ValueIdx Idealize.SL.Sem
  Idealize.ShloMosaic.StableHlo Idealize.ShloMosaic.TcCoe

/-- The neighbourhood sum of one layer: gather the rows of `h` at the edge sources, scatter-add them into the edge targets,
    starting from zeros. The same closed term for every layer. -/
def aggR (x1 : TI S2x800000) : GraphConv.Mat 50000 128 → GraphConv.Mat 50000 128 := fun h =>
  Host.scatterAdd (F := Ideal) (φ := .f32) scatter_S50000x128_S800000x1_S800000x128_1_0_0_1 (ReadP.val_main_v17 (F := Ideal)) (ReadP.val_main_v18 (F := Ideal) x1)
    (Host.gather gather_S50000x128_S800000x1_S800000x128_1_0_n_n_0_1_1128 h (ReadP.val_main_v15 (F := Ideal) x1))

/-- The per-graph mean pooling: scatter-add the rows of `h` by graph, divide by the graph sizes clamped below at one. -/
def poolR (x2 : TI S50000) : GraphConv.Mat 50000 128 → GraphConv.Mat 128 128 := fun h =>
  Host.divf (F := Ideal) (φ := .f32) (Host.scatterAdd (F := Ideal) (φ := .f32) scatter_S128x128_S50000x1_S50000x128_1_0_0_1 (ReadP.val_main_v187 (F := Ideal)) (ReadP.val_main_v188 (F := Ideal) x2) h)
    (ReadP.val_main_v197 (F := Ideal) x2)

/-- The weight matrix of layer `l` multiplying the neighbourhood sum, read at an index of the stacked array. -/
def wrelR (x3 : T S8x128x128) : Fin 8 → GraphConv.Mat 128 128 :=
  fun l i => x3 (ix3 l ⟨(i 0).val, idx2_lt0 i⟩ ⟨(i 1).val, idx2_lt1 i⟩)

/-- The weight matrix of layer `l` multiplying the layer's input, likewise. -/
def wrootR (x4 : T S8x128x128) : Fin 8 → GraphConv.Mat 128 128 :=
  fun l i => x4 (ix3 l ⟨(i 0).val, idx2_lt0 i⟩ ⟨(i 1).val, idx2_lt1 i⟩)

/-- The bias of layer `l` at a column. -/
def biasR (x5 : T S8x128) : Fin 8 → Fin 128 → EReal := fun l c => x5 (ix2 l c)

/-- The slice and reshape of layer 0's weights read at an index. -/
theorem wrel0 (x3 : T S8x128x128) : ReadP.val_main_v5 (F := Ideal) x3 = wrelR x3 0 := by
  funext i
  rw [ReadP.val_main_v5_apply, ReadP.val_main_v4_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 0's weights read at an index. -/
theorem wroot0 (x4 : T S8x128x128) : ReadP.val_main_v7 (F := Ideal) x4 = wrootR x4 0 := by
  funext i
  rw [ReadP.val_main_v7_apply, ReadP.val_main_v6_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 0's bias read at a column. -/
theorem bias0 (x5 : T S8x128) (c : Fin 128) : ReadP.val_main_v9 (F := Ideal) x5 (ix1 c) = biasR x5 0 c := by
  rw [ReadP.val_main_v9_apply, ReadP.val_main_v8_apply]
  unfold biasR
  have hc := c.isLt
  refine congrArg x5 (funext fun a => Fin.ext ?_)
  match a with
  | ⟨0, _⟩ => rfl
  | ⟨1, _⟩ => show (c.val) % 128 = c.val; omega

/-- Layer 0's neighbourhood sum is the common term at the layer's input. -/
theorem agg0 (x0 : T S50000x128) (x1 : TI S2x800000) (x3 x4 : T S8x128x128) (x5 : T S8x128) :
    ReadP.val_main_v19 (F := Ideal) x0 x1 = aggR x1 x0 := rfl

/-- Layer 0 of the reference is the specification's hidden layer. -/
theorem h1_eq (x0 : T S50000x128) (x1 : TI S2x800000) (x3 x4 : T S8x128x128) (x5 : T S8x128) :
    ReadP.val_main_v26 (F := Ideal) x0 x1 x3 x4 x5
      = GraphConv.hidden (aggR x1) x0 (wrelR x3 0) (wrootR x4 0) (biasR x5 0) := by
  have e : ReadP.val_main_v26 (F := Ideal) x0 x1 x3 x4 x5
      = reluT (layerT (ReadP.val_main_v19 (F := Ideal) x0 x1) x0 (ReadP.val_main_v5 (F := Ideal) x3)
          (ReadP.val_main_v7 (F := Ideal) x4) (ReadP.val_main_v9 (F := Ideal) x5)) := rfl
  rw [e]
  exact hidden_of (aggR x1) _ _ _ _ _ _ _ _ (agg0 x0 x1 x3 x4 x5) (wrel0 x3) (wroot0 x4) (bias0 x5)

/-- The slice and reshape of layer 1's weights read at an index. -/
theorem wrel1 (x3 : T S8x128x128) : ReadP.val_main_v28 (F := Ideal) x3 = wrelR x3 1 := by
  funext i
  rw [ReadP.val_main_v28_apply, ReadP.val_main_v27_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 1's weights read at an index. -/
theorem wroot1 (x4 : T S8x128x128) : ReadP.val_main_v30 (F := Ideal) x4 = wrootR x4 1 := by
  funext i
  rw [ReadP.val_main_v30_apply, ReadP.val_main_v29_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 1's bias read at a column. -/
theorem bias1 (x5 : T S8x128) (c : Fin 128) : ReadP.val_main_v32 (F := Ideal) x5 (ix1 c) = biasR x5 1 c := by
  rw [ReadP.val_main_v32_apply, ReadP.val_main_v31_apply]
  unfold biasR
  have hc := c.isLt
  refine congrArg x5 (funext fun a => Fin.ext ?_)
  match a with
  | ⟨0, _⟩ => rfl
  | ⟨1, _⟩ => show (c.val) % 128 = c.val; omega

/-- Layer 1's neighbourhood sum is the common term at the layer's input. -/
theorem agg1 (x0 : T S50000x128) (x1 : TI S2x800000) (x3 x4 : T S8x128x128) (x5 : T S8x128) :
    ReadP.val_main_v42 (F := Ideal) x0 x1 x3 x4 x5 = aggR x1 (ReadP.val_main_v26 (F := Ideal) x0 x1 x3 x4 x5) := rfl

/-- Layer 1 of the reference is the specification's hidden layer. -/
theorem h2_eq (x0 : T S50000x128) (x1 : TI S2x800000) (x3 x4 : T S8x128x128) (x5 : T S8x128) :
    ReadP.val_main_v49 (F := Ideal) x0 x1 x3 x4 x5
      = GraphConv.hidden (aggR x1) (ReadP.val_main_v26 (F := Ideal) x0 x1 x3 x4 x5) (wrelR x3 1) (wrootR x4 1) (biasR x5 1) := by
  have e : ReadP.val_main_v49 (F := Ideal) x0 x1 x3 x4 x5
      = reluT (layerT (ReadP.val_main_v42 (F := Ideal) x0 x1 x3 x4 x5) (ReadP.val_main_v26 (F := Ideal) x0 x1 x3 x4 x5) (ReadP.val_main_v28 (F := Ideal) x3)
          (ReadP.val_main_v30 (F := Ideal) x4) (ReadP.val_main_v32 (F := Ideal) x5)) := rfl
  rw [e]
  exact hidden_of (aggR x1) _ _ _ _ _ _ _ _ (agg1 x0 x1 x3 x4 x5) (wrel1 x3) (wroot1 x4) (bias1 x5)

/-- The slice and reshape of layer 2's weights read at an index. -/
theorem wrel2 (x3 : T S8x128x128) : ReadP.val_main_v51 (F := Ideal) x3 = wrelR x3 2 := by
  funext i
  rw [ReadP.val_main_v51_apply, ReadP.val_main_v50_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 2's weights read at an index. -/
theorem wroot2 (x4 : T S8x128x128) : ReadP.val_main_v53 (F := Ideal) x4 = wrootR x4 2 := by
  funext i
  rw [ReadP.val_main_v53_apply, ReadP.val_main_v52_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 2's bias read at a column. -/
theorem bias2 (x5 : T S8x128) (c : Fin 128) : ReadP.val_main_v55 (F := Ideal) x5 (ix1 c) = biasR x5 2 c := by
  rw [ReadP.val_main_v55_apply, ReadP.val_main_v54_apply]
  unfold biasR
  have hc := c.isLt
  refine congrArg x5 (funext fun a => Fin.ext ?_)
  match a with
  | ⟨0, _⟩ => rfl
  | ⟨1, _⟩ => show (c.val) % 128 = c.val; omega

/-- Layer 2's neighbourhood sum is the common term at the layer's input. -/
theorem agg2 (x0 : T S50000x128) (x1 : TI S2x800000) (x3 x4 : T S8x128x128) (x5 : T S8x128) :
    ReadP.val_main_v65 (F := Ideal) x0 x1 x3 x4 x5 = aggR x1 (ReadP.val_main_v49 (F := Ideal) x0 x1 x3 x4 x5) := rfl

/-- Layer 2 of the reference is the specification's hidden layer. -/
theorem h3_eq (x0 : T S50000x128) (x1 : TI S2x800000) (x3 x4 : T S8x128x128) (x5 : T S8x128) :
    ReadP.val_main_v72 (F := Ideal) x0 x1 x3 x4 x5
      = GraphConv.hidden (aggR x1) (ReadP.val_main_v49 (F := Ideal) x0 x1 x3 x4 x5) (wrelR x3 2) (wrootR x4 2) (biasR x5 2) := by
  have e : ReadP.val_main_v72 (F := Ideal) x0 x1 x3 x4 x5
      = reluT (layerT (ReadP.val_main_v65 (F := Ideal) x0 x1 x3 x4 x5) (ReadP.val_main_v49 (F := Ideal) x0 x1 x3 x4 x5) (ReadP.val_main_v51 (F := Ideal) x3)
          (ReadP.val_main_v53 (F := Ideal) x4) (ReadP.val_main_v55 (F := Ideal) x5)) := rfl
  rw [e]
  exact hidden_of (aggR x1) _ _ _ _ _ _ _ _ (agg2 x0 x1 x3 x4 x5) (wrel2 x3) (wroot2 x4) (bias2 x5)

/-- The slice and reshape of layer 3's weights read at an index. -/
theorem wrel3 (x3 : T S8x128x128) : ReadP.val_main_v74 (F := Ideal) x3 = wrelR x3 3 := by
  funext i
  rw [ReadP.val_main_v74_apply, ReadP.val_main_v73_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 3's weights read at an index. -/
theorem wroot3 (x4 : T S8x128x128) : ReadP.val_main_v76 (F := Ideal) x4 = wrootR x4 3 := by
  funext i
  rw [ReadP.val_main_v76_apply, ReadP.val_main_v75_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 3's bias read at a column. -/
theorem bias3 (x5 : T S8x128) (c : Fin 128) : ReadP.val_main_v78 (F := Ideal) x5 (ix1 c) = biasR x5 3 c := by
  rw [ReadP.val_main_v78_apply, ReadP.val_main_v77_apply]
  unfold biasR
  have hc := c.isLt
  refine congrArg x5 (funext fun a => Fin.ext ?_)
  match a with
  | ⟨0, _⟩ => rfl
  | ⟨1, _⟩ => show (c.val) % 128 = c.val; omega

/-- Layer 3's neighbourhood sum is the common term at the layer's input. -/
theorem agg3 (x0 : T S50000x128) (x1 : TI S2x800000) (x3 x4 : T S8x128x128) (x5 : T S8x128) :
    ReadP.val_main_v88 (F := Ideal) x0 x1 x3 x4 x5 = aggR x1 (ReadP.val_main_v72 (F := Ideal) x0 x1 x3 x4 x5) := rfl

/-- Layer 3 of the reference is the specification's hidden layer. -/
theorem h4_eq (x0 : T S50000x128) (x1 : TI S2x800000) (x3 x4 : T S8x128x128) (x5 : T S8x128) :
    ReadP.val_main_v95 (F := Ideal) x0 x1 x3 x4 x5
      = GraphConv.hidden (aggR x1) (ReadP.val_main_v72 (F := Ideal) x0 x1 x3 x4 x5) (wrelR x3 3) (wrootR x4 3) (biasR x5 3) := by
  have e : ReadP.val_main_v95 (F := Ideal) x0 x1 x3 x4 x5
      = reluT (layerT (ReadP.val_main_v88 (F := Ideal) x0 x1 x3 x4 x5) (ReadP.val_main_v72 (F := Ideal) x0 x1 x3 x4 x5) (ReadP.val_main_v74 (F := Ideal) x3)
          (ReadP.val_main_v76 (F := Ideal) x4) (ReadP.val_main_v78 (F := Ideal) x5)) := rfl
  rw [e]
  exact hidden_of (aggR x1) _ _ _ _ _ _ _ _ (agg3 x0 x1 x3 x4 x5) (wrel3 x3) (wroot3 x4) (bias3 x5)

/-- The slice and reshape of layer 4's weights read at an index. -/
theorem wrel4 (x3 : T S8x128x128) : ReadP.val_main_v97 (F := Ideal) x3 = wrelR x3 4 := by
  funext i
  rw [ReadP.val_main_v97_apply, ReadP.val_main_v96_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 4's weights read at an index. -/
theorem wroot4 (x4 : T S8x128x128) : ReadP.val_main_v99 (F := Ideal) x4 = wrootR x4 4 := by
  funext i
  rw [ReadP.val_main_v99_apply, ReadP.val_main_v98_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 4's bias read at a column. -/
theorem bias4 (x5 : T S8x128) (c : Fin 128) : ReadP.val_main_v101 (F := Ideal) x5 (ix1 c) = biasR x5 4 c := by
  rw [ReadP.val_main_v101_apply, ReadP.val_main_v100_apply]
  unfold biasR
  have hc := c.isLt
  refine congrArg x5 (funext fun a => Fin.ext ?_)
  match a with
  | ⟨0, _⟩ => rfl
  | ⟨1, _⟩ => show (c.val) % 128 = c.val; omega

/-- Layer 4's neighbourhood sum is the common term at the layer's input. -/
theorem agg4 (x0 : T S50000x128) (x1 : TI S2x800000) (x3 x4 : T S8x128x128) (x5 : T S8x128) :
    ReadP.val_main_v111 (F := Ideal) x0 x1 x3 x4 x5 = aggR x1 (ReadP.val_main_v95 (F := Ideal) x0 x1 x3 x4 x5) := rfl

/-- Layer 4 of the reference is the specification's hidden layer. -/
theorem h5_eq (x0 : T S50000x128) (x1 : TI S2x800000) (x3 x4 : T S8x128x128) (x5 : T S8x128) :
    ReadP.val_main_v118 (F := Ideal) x0 x1 x3 x4 x5
      = GraphConv.hidden (aggR x1) (ReadP.val_main_v95 (F := Ideal) x0 x1 x3 x4 x5) (wrelR x3 4) (wrootR x4 4) (biasR x5 4) := by
  have e : ReadP.val_main_v118 (F := Ideal) x0 x1 x3 x4 x5
      = reluT (layerT (ReadP.val_main_v111 (F := Ideal) x0 x1 x3 x4 x5) (ReadP.val_main_v95 (F := Ideal) x0 x1 x3 x4 x5) (ReadP.val_main_v97 (F := Ideal) x3)
          (ReadP.val_main_v99 (F := Ideal) x4) (ReadP.val_main_v101 (F := Ideal) x5)) := rfl
  rw [e]
  exact hidden_of (aggR x1) _ _ _ _ _ _ _ _ (agg4 x0 x1 x3 x4 x5) (wrel4 x3) (wroot4 x4) (bias4 x5)

/-- The slice and reshape of layer 5's weights read at an index. -/
theorem wrel5 (x3 : T S8x128x128) : ReadP.val_main_v120 (F := Ideal) x3 = wrelR x3 5 := by
  funext i
  rw [ReadP.val_main_v120_apply, ReadP.val_main_v119_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 5's weights read at an index. -/
theorem wroot5 (x4 : T S8x128x128) : ReadP.val_main_v122 (F := Ideal) x4 = wrootR x4 5 := by
  funext i
  rw [ReadP.val_main_v122_apply, ReadP.val_main_v121_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 5's bias read at a column. -/
theorem bias5 (x5 : T S8x128) (c : Fin 128) : ReadP.val_main_v124 (F := Ideal) x5 (ix1 c) = biasR x5 5 c := by
  rw [ReadP.val_main_v124_apply, ReadP.val_main_v123_apply]
  unfold biasR
  have hc := c.isLt
  refine congrArg x5 (funext fun a => Fin.ext ?_)
  match a with
  | ⟨0, _⟩ => rfl
  | ⟨1, _⟩ => show (c.val) % 128 = c.val; omega

/-- Layer 5's neighbourhood sum is the common term at the layer's input. -/
theorem agg5 (x0 : T S50000x128) (x1 : TI S2x800000) (x3 x4 : T S8x128x128) (x5 : T S8x128) :
    ReadP.val_main_v134 (F := Ideal) x0 x1 x3 x4 x5 = aggR x1 (ReadP.val_main_v118 (F := Ideal) x0 x1 x3 x4 x5) := rfl

/-- Layer 5 of the reference is the specification's hidden layer. -/
theorem h6_eq (x0 : T S50000x128) (x1 : TI S2x800000) (x3 x4 : T S8x128x128) (x5 : T S8x128) :
    ReadP.val_main_v141 (F := Ideal) x0 x1 x3 x4 x5
      = GraphConv.hidden (aggR x1) (ReadP.val_main_v118 (F := Ideal) x0 x1 x3 x4 x5) (wrelR x3 5) (wrootR x4 5) (biasR x5 5) := by
  have e : ReadP.val_main_v141 (F := Ideal) x0 x1 x3 x4 x5
      = reluT (layerT (ReadP.val_main_v134 (F := Ideal) x0 x1 x3 x4 x5) (ReadP.val_main_v118 (F := Ideal) x0 x1 x3 x4 x5) (ReadP.val_main_v120 (F := Ideal) x3)
          (ReadP.val_main_v122 (F := Ideal) x4) (ReadP.val_main_v124 (F := Ideal) x5)) := rfl
  rw [e]
  exact hidden_of (aggR x1) _ _ _ _ _ _ _ _ (agg5 x0 x1 x3 x4 x5) (wrel5 x3) (wroot5 x4) (bias5 x5)

/-- The slice and reshape of layer 6's weights read at an index. -/
theorem wrel6 (x3 : T S8x128x128) : ReadP.val_main_v143 (F := Ideal) x3 = wrelR x3 6 := by
  funext i
  rw [ReadP.val_main_v143_apply, ReadP.val_main_v142_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 6's weights read at an index. -/
theorem wroot6 (x4 : T S8x128x128) : ReadP.val_main_v145 (F := Ideal) x4 = wrootR x4 6 := by
  funext i
  rw [ReadP.val_main_v145_apply, ReadP.val_main_v144_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 6's bias read at a column. -/
theorem bias6 (x5 : T S8x128) (c : Fin 128) : ReadP.val_main_v147 (F := Ideal) x5 (ix1 c) = biasR x5 6 c := by
  rw [ReadP.val_main_v147_apply, ReadP.val_main_v146_apply]
  unfold biasR
  have hc := c.isLt
  refine congrArg x5 (funext fun a => Fin.ext ?_)
  match a with
  | ⟨0, _⟩ => rfl
  | ⟨1, _⟩ => show (c.val) % 128 = c.val; omega

/-- Layer 6's neighbourhood sum is the common term at the layer's input. -/
theorem agg6 (x0 : T S50000x128) (x1 : TI S2x800000) (x3 x4 : T S8x128x128) (x5 : T S8x128) :
    ReadP.val_main_v157 (F := Ideal) x0 x1 x3 x4 x5 = aggR x1 (ReadP.val_main_v141 (F := Ideal) x0 x1 x3 x4 x5) := rfl

/-- Layer 6 of the reference is the specification's hidden layer. -/
theorem h7_eq (x0 : T S50000x128) (x1 : TI S2x800000) (x3 x4 : T S8x128x128) (x5 : T S8x128) :
    ReadP.val_main_v164 (F := Ideal) x0 x1 x3 x4 x5
      = GraphConv.hidden (aggR x1) (ReadP.val_main_v141 (F := Ideal) x0 x1 x3 x4 x5) (wrelR x3 6) (wrootR x4 6) (biasR x5 6) := by
  have e : ReadP.val_main_v164 (F := Ideal) x0 x1 x3 x4 x5
      = reluT (layerT (ReadP.val_main_v157 (F := Ideal) x0 x1 x3 x4 x5) (ReadP.val_main_v141 (F := Ideal) x0 x1 x3 x4 x5) (ReadP.val_main_v143 (F := Ideal) x3)
          (ReadP.val_main_v145 (F := Ideal) x4) (ReadP.val_main_v147 (F := Ideal) x5)) := rfl
  rw [e]
  exact hidden_of (aggR x1) _ _ _ _ _ _ _ _ (agg6 x0 x1 x3 x4 x5) (wrel6 x3) (wroot6 x4) (bias6 x5)

/-- The slice and reshape of layer 7's weights read at an index. -/
theorem wrel7 (x3 : T S8x128x128) : ReadP.val_main_v166 (F := Ideal) x3 = wrelR x3 7 := by
  funext i
  rw [ReadP.val_main_v166_apply, ReadP.val_main_v165_apply]
  unfold wrelR
  have h0 := idx2_lt0 i
  have h1 := idx2_lt1 i
  refine congrArg x3 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 7's weights read at an index. -/
theorem wroot7 (x4 : T S8x128x128) : ReadP.val_main_v168 (F := Ideal) x4 = wrootR x4 7 := by
  funext i
  rw [ReadP.val_main_v168_apply, ReadP.val_main_v167_apply]
  unfold wrootR
  have h0 := idx2_lt0 i
  have h1 := idx2_lt1 i
  refine congrArg x4 (funext fun a => Fin.ext ?_)
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The slice and reshape of layer 7's bias read at a column. -/
theorem bias7 (x5 : T S8x128) (c : Fin 128) : ReadP.val_main_v170 (F := Ideal) x5 (ix1 c) = biasR x5 7 c := by
  rw [ReadP.val_main_v170_apply, ReadP.val_main_v169_apply]
  unfold biasR
  have hc := c.isLt
  refine congrArg x5 (funext fun a => Fin.ext ?_)
  match a with
  | ⟨0, _⟩ => rfl
  | ⟨1, _⟩ => show (c.val) % 128 = c.val; omega

/-- Layer 7's neighbourhood sum is the common term at the layer's input. -/
theorem agg7 (x0 : T S50000x128) (x1 : TI S2x800000) (x3 x4 : T S8x128x128) (x5 : T S8x128) :
    ReadP.val_main_v180 (F := Ideal) x0 x1 x3 x4 x5 = aggR x1 (ReadP.val_main_v164 (F := Ideal) x0 x1 x3 x4 x5) := rfl

/-- Layer 7 of the reference is the specification's last layer. -/
theorem h8_eq (x0 : T S50000x128) (x1 : TI S2x800000) (x3 x4 : T S8x128x128) (x5 : T S8x128) :
    ReadP.val_main_v186 (F := Ideal) x0 x1 x3 x4 x5
      = GraphConv.last (aggR x1) (ReadP.val_main_v164 (F := Ideal) x0 x1 x3 x4 x5) (wrelR x3 7) (wrootR x4 7) (biasR x5 7) := by
  have e : ReadP.val_main_v186 (F := Ideal) x0 x1 x3 x4 x5
      = layerT (ReadP.val_main_v180 (F := Ideal) x0 x1 x3 x4 x5) (ReadP.val_main_v164 (F := Ideal) x0 x1 x3 x4 x5) (ReadP.val_main_v166 (F := Ideal) x3)
          (ReadP.val_main_v168 (F := Ideal) x4) (ReadP.val_main_v170 (F := Ideal) x5) := rfl
  rw [e]
  exact last_of (aggR x1) _ _ _ _ _ _ _ _ (agg7 x0 x1 x3 x4 x5) (wrel7 x3) (wroot7 x4) (bias7 x5)

/-- The reference program's result is the specification's network at the reference's aggregation, pooling and weights. -/
theorem ref_is_model (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 x4 : (⟨S8x128x128, .f32⟩ : BufTy).Contents (Elt Ideal))
    (x5 : (⟨S8x128, .f32⟩ : BufTy).Contents (Elt Ideal)) (x6 : (⟨S128x10, .f32⟩ : BufTy).Contents (Elt Ideal))
    (x7 : (⟨S10, .f32⟩ : BufTy).Contents (Elt Ideal)) :
    ReadP.val_main_v202 (F := Ideal) x0 x1 x2 x3 x4 x5 x6 x7
      = GraphConv.model (aggR x1) (poolR x2) x0 (wrelR x3) (wrootR x4) (biasR x5) x6 (blinR x7) := by
  have e : ReadP.val_main_v202 (F := Ideal) x0 x1 x2 x3 x4 x5 x6 x7
      = linT (poolR x2 (ReadP.val_main_v186 (F := Ideal) x0 x1 x3 x4 x5)) x6 x7 := rfl
  rw [e, linT_eq, h8_eq, h7_eq, h6_eq, h5_eq, h4_eq, h3_eq, h2_eq, h1_eq]
  rfl

/-- The value the reference's run leaves in its result is the specification's network at the run's arguments. -/
theorem ref_run_is_model (m : (ℓ : Loc nD τ sig) → Buf (Elt Ideal) ℓ) (c : Dev nD) :
    ValueP.res_main_v202 (F := Ideal) m c
      = GraphConv.model (aggR (m ((c.tc : Thread nD τ).loc main_arg1))) (poolR (m ((c.tc : Thread nD τ).loc main_arg2)))
          (m ((c.tc : Thread nD τ).loc main_arg0)) (wrelR (m ((c.tc : Thread nD τ).loc main_arg3)))
          (wrootR (m ((c.tc : Thread nD τ).loc main_arg4))) (biasR (m ((c.tc : Thread nD τ).loc main_arg5)))
          (m ((c.tc : Thread nD τ).loc main_arg6)) (blinR (m ((c.tc : Thread nD τ).loc main_arg7))) := by
  rw [ReadP.val_main_v202_eq]
  exact ref_is_model _ _ _ _ _ _ _ _

end Cert.ReferenceIdeal.Model

end
-- ==== Proof.Bridge.lean ====
/-
  The two programs' host sides are the same functions. The kernel's @main and the reference's @main compute the
  neighbourhood sum and the mean pool by the same host operations on the same arguments, and slice the stacked weights and
  biases at the same places; so the specification's parameters on the two sides coincide, and with them the two networks.
-/
import proofs.«108526_j48593259987025_1_alg».proof.Proof.HostFns
import proofs.«108526_j48593259987025_1_alg».proof.Proof.RefModel

set_option maxRecDepth 16384

noncomputable section

namespace Cert.Bridge

open Idealize.ShloMosaic Idealize.ShloMosaic.ValueIdx

/-- The aggregation is one function on both sides. -/
theorem agg_eq (x1 : IVec Cert.KernelIdeal.S2x800000 32) : Cert.ReferenceIdeal.Model.aggR x1 = Cert.KernelIdeal.Host.aggK x1 := rfl

/-- The pooling is one function on both sides. -/
theorem pool_eq (x2 : IVec Cert.KernelIdeal.S50000 32) : Cert.ReferenceIdeal.Model.poolR x2 = Cert.KernelIdeal.Host.poolK x2 := rfl

/-- The reference's network is the kernel's. -/
theorem model_eq (x0 : Vec Ideal Cert.KernelIdeal.S50000x128 .f32) (x1 : IVec Cert.KernelIdeal.S2x800000 32) (x2 : IVec Cert.KernelIdeal.S50000 32)
    (x3 x4 : Vec Ideal Cert.KernelIdeal.S8x128x128 .f32) (x5 : Vec Ideal Cert.KernelIdeal.S8x128 .f32)
    (x6 : Vec Ideal Cert.KernelIdeal.S128x10 .f32) (x7 : Vec Ideal Cert.KernelIdeal.S10 .f32) :
    GraphConv.model (Cert.ReferenceIdeal.Model.aggR x1) (Cert.ReferenceIdeal.Model.poolR x2) x0 (Cert.ReferenceIdeal.Model.wrelR x3)
        (Cert.ReferenceIdeal.Model.wrootR x4) (Cert.ReferenceIdeal.Model.biasR x5) x6 (Cert.ReferenceIdeal.Model.blinR x7)
      = GraphConv.model (Cert.KernelIdeal.Host.aggK x1) (Cert.KernelIdeal.Host.poolK x2) x0 (Cert.KernelIdeal.Host.wmat x3)
        (Cert.KernelIdeal.Host.wmat x4) (Cert.KernelIdeal.Host.bvec x5) x6 (Cert.KernelIdeal.Host.blin x7) := by
  rw [agg_eq, pool_eq]
  rfl

end Cert.Bridge

end
-- ==== Proof.lean ====
/-
  The certificate of an eight-layer graph-convolution network: a Pallas kernel against its jnp reference.
  Both programs compute, per layer, `h ↦ (A h · W_rel + b) + h · W_root` — `A h` the neighbourhood sum (rows gathered along
  the edges and added into their destination rows) —, clamp the first seven layers below at zero, pool the rows per graph and
  apply one more affine map. The kernel runs each layer's two matrix products, the bias and the clamp in a grid region over
  ten row blocks and adds the bias LAST, `(A h · W_rel + h · W_root) + b`; the reference adds it in the middle. On the extended
  reals the two groupings are equal by commutativity and associativity of addition alone, so no finiteness of the inputs is
  used. The aggregation and the pooling are the same host operations in both programs and are never opened.
  The three frames are the generated frame certificates (the reference's is its run with the result dropped); the
  idealization rewrote no operation, so `preserves` is trivial; `algebraic` joins the kernel's run with its result named
  (the fold through @main's segments read at the result buffer, then composed layer by layer into the specification) with
  the reference's run read stage by stage into the same specification.
-/
import proofs.«108526_j48593259987025_1_alg».proof.Defs
import proofs.«108526_j48593259987025_1_alg».proof.Proof.Gen.Kernel
import proofs.«108526_j48593259987025_1_alg».proof.Proof.Gen.Kernel.Skeleton
import proofs.«108526_j48593259987025_1_alg».proof.Proof.Gen.Kernel.Launch
import proofs.«108526_j48593259987025_1_alg».proof.Proof.Gen.Kernel.Points
import proofs.«108526_j48593259987025_1_alg».proof.Proof.Gen.Kernel.Frame
import proofs.«108526_j48593259987025_1_alg».proof.Proof.Gen.KernelIdeal
import proofs.«108526_j48593259987025_1_alg».proof.Proof.Gen.KernelIdeal.Skeleton
import proofs.«108526_j48593259987025_1_alg».proof.Proof.Gen.KernelIdeal.Launch
import proofs.«108526_j48593259987025_1_alg».proof.Proof.Gen.KernelIdeal.Points
import proofs.«108526_j48593259987025_1_alg».proof.Proof.Gen.KernelIdeal.Frame
import proofs.«108526_j48593259987025_1_alg».proof.Proof.Gen.ReferenceIdeal
import proofs.«108526_j48593259987025_1_alg».proof.Proof.Gen.Pre_finite_inputs
import proofs.«108526_j48593259987025_1_alg».proof.Proof.KernelRun
import proofs.«108526_j48593259987025_1_alg».proof.Proof.Chain
import proofs.«108526_j48593259987025_1_alg».proof.Proof.RefModel
import proofs.«108526_j48593259987025_1_alg».proof.Proof.Bridge
import Idealize.ShloMosaic.Adequacy
import Idealize.ShloMosaic.Init

set_option maxRecDepth 16384

noncomputable section

namespace Cert.Proof

open Idealize.ShloMosaic Idealize.SL.Sem Cert.Kernel

/-- The reference's frame: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- Both idealized programs end with the specification's network of the arguments at their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V18 m ρ c Cert.KernelIdeal.main_v161, Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v202_eq, Cert.ReferenceIdeal.Model.ref_is_model, a0, a1, a2, a3, a4, a5, a6, a7]
  exact (Cert.Bridge.model_eq _ _ _ _ _ _ _ _).trans (Cert.KernelIdeal.Host.result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
